-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x1024 .f32) (main_arg1 : FVec F S3072x1024 .f32) (main_arg2 : FVec F S3072 .f32) (main_arg3 : FVec F S1024x1024 .f32) (main_arg4 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S16x3x64x1024 : Shape := ⟨4, ![16, 3, 64, 1024]⟩
abbrev S3x16x64x1024 : Shape := ⟨4, ![3, 16, 64, 1024]⟩
abbrev S16x3x64 : Shape := ⟨3, ![16, 3, 64]⟩
abbrev S3x16x64 : Shape := ⟨3, ![3, 16, 64]⟩
abbrev S1x3072 : Shape := ⟨2, ![1, 3072]⟩
abbrev S1024x3072 : Shape := ⟨2, ![1024, 3072]⟩
abbrev S1x1024x1024 : Shape := ⟨3, ![1, 1024, 1024]⟩
abbrev S1x1024x64 : Shape := ⟨3, ![1, 1024, 64]⟩
abbrev S1024x64 : Shape := ⟨2, ![1024, 64]⟩
abbrev S1024x1 : Shape := ⟨2, ![1024, 1]⟩
abbrev S1x1024 : Shape := ⟨2, ![1, 1024]⟩

abbrev nBuf : Space → Nat
  | .hbm => 26
  | .vmem => 26
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S16x3x64x1024, .f32⟩
  | .hbm, ⟨7, _⟩ => ⟨S3x16x64x1024, .f32⟩
  | .hbm, ⟨8, _⟩ => ⟨S3072x1024, .f32⟩
  | .hbm, ⟨9, _⟩ => ⟨S3072x1024, .bf16⟩
  | .hbm, ⟨10, _⟩ => ⟨S16x3x64, .f32⟩
  | .hbm, ⟨11, _⟩ => ⟨S3x16x64, .f32⟩
  | .hbm, ⟨12, _⟩ => ⟨S3072, .f32⟩
  | .hbm, ⟨13, _⟩ => ⟨S1x3072, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8x1024x1024, .bf16⟩
  | .hbm, ⟨18, _⟩ => ⟨S8x1024x1024, .bf16⟩
  | .hbm, ⟨19, _⟩ => ⟨S8x1024x1024, .bf16⟩
  | .hbm, ⟨20, _⟩ => ⟨S8x1024x1024, .f32⟩
  | .hbm, ⟨21, _⟩ => ⟨S8192x1024, .f32⟩
  | .hbm, ⟨22, _⟩ => ⟨S1024x1024, .bf16⟩
  | .hbm, ⟨23, _⟩ => ⟨S1x1024, .f32⟩
  | .hbm, ⟨24, _⟩ => ⟨S8192x1024, .f32⟩
  | .hbm, ⟨25, _⟩ => ⟨S8x1024x1024, .f32⟩
  | .local _ .vmem, ⟨0, _⟩ => ⟨S1024x1024, .f32⟩
  | .local _ .vmem, ⟨1, _⟩ => ⟨S1024x1024, .f32⟩
  | .local _ .vmem, ⟨2, _⟩ => ⟨S3072x1024, .bf16⟩
  | .local _ .vmem, ⟨3, _⟩ => ⟨S1x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def k1_mult1 : BitVec 32 :=
  let c0_i32 : BitVec 32 := 0#32
  let c64_i32 : BitVec 32 := 64#32
  let v0 : BitVec 32 := Scalar.muli c0_i32 c64_i32
  v0
def k1_off1 (c0_i32 : BitVec 32) : Fin 3 → Nat :=
  let c0 : Index := 0#32
  let c0_0 : Index := 0#32
  let c64_i32 : BitVec 32 := 64#32
  let v0 : BitVec 32 := Scalar.muli c0_i32 c64_i32
  let v1 : BitVec 32 := v0
  let v2 : Index := Scalar.indexCast v1
  ![0, 0, v2.toNat]
def k1_mult2 : BitVec 32 :=
  let c1_i32 : BitVec 32 := 1#32
  let c64_i32_11 : BitVec 32 := 64#32
  let v29 : BitVec 32 := Scalar.muli c1_i32 c64_i32_11
  v29
def k1_mult3 : BitVec 32 :=
  let c2_i32 : BitVec 32 := 2#32
  let c64_i32_25 : BitVec 32 := 64#32
  let v58 : BitVec 32 := Scalar.muli c2_i32 c64_i32_25
  v58
def k1_mult4 : BitVec 32 :=
  let c3_i32 : BitVec 32 := 3#32
  let c64_i32_39 : BitVec 32 := 64#32
  let v87 : BitVec 32 := Scalar.muli c3_i32 c64_i32_39
  v87
def k1_mult5 : BitVec 32 :=
  let c4_i32 : BitVec 32 := 4#32
  let c64_i32_53 : BitVec 32 := 64#32
  let v116 : BitVec 32 := Scalar.muli c4_i32 c64_i32_53
  v116
def k1_mult6 : BitVec 32 :=
  let c5_i32 : BitVec 32 := 5#32
  let c64_i32_67 : BitVec 32 := 64#32
  let v145 : BitVec 32 := Scalar.muli c5_i32 c64_i32_67
  v145
def k1_mult7 : BitVec 32 :=
  let c6_i32 : BitVec 32 := 6#32
  let c64_i32_81 : BitVec 32 := 64#32
  let v174 : BitVec 32 := Scalar.muli c6_i32 c64_i32_81
  v174
def k1_mult8 : BitVec 32 :=
  let c7_i32 : BitVec 32 := 7#32
  let c64_i32_95 : BitVec 32 := 64#32
  let v203 : BitVec 32 := Scalar.muli c7_i32 c64_i32_95
  v203
def k1_mult9 : BitVec 32 :=
  let c8_i32 : BitVec 32 := 8#32
  let c64_i32_109 : BitVec 32 := 64#32
  let v232 : BitVec 32 := Scalar.muli c8_i32 c64_i32_109
  v232
def k1_mult10 : BitVec 32 :=
  let c9_i32 : BitVec 32 := 9#32
  let c64_i32_123 : BitVec 32 := 64#32
  let v261 : BitVec 32 := Scalar.muli c9_i32 c64_i32_123
  v261
def k1_mult11 : BitVec 32 :=
  let c10_i32 : BitVec 32 := 10#32
  let c64_i32_137 : BitVec 32 := 64#32
  let v290 : BitVec 32 := Scalar.muli c10_i32 c64_i32_137
  v290
def k1_mult12 : BitVec 32 :=
  let c11_i32 : BitVec 32 := 11#32
  let c64_i32_151 : BitVec 32 := 64#32
  let v319 : BitVec 32 := Scalar.muli c11_i32 c64_i32_151
  v319
def k1_mult13 : BitVec 32 :=
  let c12_i32 : BitVec 32 := 12#32
  let c64_i32_165 : BitVec 32 := 64#32
  let v348 : BitVec 32 := Scalar.muli c12_i32 c64_i32_165
  v348
def k1_mult14 : BitVec 32 :=
  let c13_i32 : BitVec 32 := 13#32
  let c64_i32_179 : BitVec 32 := 64#32
  let v377 : BitVec 32 := Scalar.muli c13_i32 c64_i32_179
  v377
def k1_mult15 : BitVec 32 :=
  let c14_i32 : BitVec 32 := 14#32
  let c64_i32_193 : BitVec 32 := 64#32
  let v406 : BitVec 32 := Scalar.muli c14_i32 c64_i32_193
  v406
def k1_mult16 : BitVec 32 :=
  let c15_i32 : BitVec 32 := 15#32
  let c64_i32_207 : BitVec 32 := 64#32
  let v435 : BitVec 32 := Scalar.muli c15_i32 c64_i32_207
  v435
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S8x1024x1024_S8192x1024 : S8x1024x1024.ShapeCasts S8192x1024
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  bitsLt_bf16_f32 : FTy.bits .bf16 < FTy.bits .f32
  shapeCasts_S3072_S16x3x64 : S3072.ShapeCasts S16x3x64
  transposes_S16x3x64_S3x16x64_1_0_2 : S16x3x64.Transposes [1, 0, 2] S3x16x64
  shapeCasts_S3x16x64_S3072 : S3x16x64.ShapeCasts S3072
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  slices_S1024x3072_o0_0_S1024x1024 : S1024x3072.Slices ![0, 0] S1024x1024
  packedbf16_S1024x1024_S1024x1024_0_0 : (Rect.unit (s := S1024x1024) ![0, 0] S1024x1024.size inb_S1024x1024_S1024x1024_0_0).PackedRows (EltTy.packing .bf16)
  slices_S1024x3072_o0_1024_S1024x1024 : S1024x3072.Slices ![0, 1024] S1024x1024
  slices_S1024x3072_o0_2048_S1024x1024 : S1024x3072.Slices ![0, 2048] S1024x1024
  shapeCasts_S8192x1024_S8x1024x1024 : S8192x1024.ShapeCasts S8x1024x1024
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S3072x1024_S1024x3072_1_1_0_0_n_n_wf : DotDims.WF S1024x1024 S3072x1024 S1024x3072 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  k1_mult1_dvd : 64 ∣ k1_mult1.toNat
  k1_off1_inb : ∀ (r : Fin 16), ∀ a, (k1_off1 (BitVec.ofNat 32 r.val)) a + S1x1024x64.size a ≤ S1x1024x1024.size a
  k1_mult2_dvd : 64 ∣ k1_mult2.toNat
  k1_mult3_dvd : 64 ∣ k1_mult3.toNat
  k1_mult4_dvd : 64 ∣ k1_mult4.toNat
  k1_mult5_dvd : 64 ∣ k1_mult5.toNat
  k1_mult6_dvd : 64 ∣ k1_mult6.toNat
  k1_mult7_dvd : 64 ∣ k1_mult7.toNat
  k1_mult8_dvd : 64 ∣ k1_mult8.toNat
  k1_mult9_dvd : 64 ∣ k1_mult9.toNat
  k1_mult10_dvd : 64 ∣ k1_mult10.toNat
  k1_mult11_dvd : 64 ∣ k1_mult11.toNat
  k1_mult12_dvd : 64 ∣ k1_mult12.toNat
  k1_mult13_dvd : 64 ∣ k1_mult13.toNat
  k1_mult14_dvd : 64 ∣ k1_mult14.toNat
  k1_mult15_dvd : 64 ∣ k1_mult15.toNat
  k1_mult16_dvd : 64 ∣ k1_mult16.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x1024x1024.size a
  hwx1_0 : ∀ i : grid1.Coords, EltTy.bits .bf16 = 32 ∨ (Rect.block (s := S8x1024x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .bf16 = 32 ∨ (Rect.block (s := S8x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x1024x1024.size a
  hwx1_2 : ∀ i : grid1.Coords, EltTy.bits .bf16 = 32 ∨ (Rect.block (s := S8x1024x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x1024x1024.size a
  hwx1_3 : ∀ i : grid1.Coords, EltTy.bits .f32 = 32 ∨ (Rect.block (s := S8x1024x1024) S1x1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x1024.size a
  hwx2_4 : ∀ i : grid2.Coords, EltTy.bits .f32 = 32 ∨ (Rect.block (s := S8192x1024) S1024x1024.size (cc2_transform_4 i) (hinb2_4 i)).WholeWords (EltTy.packing .f32)

variable [Facts₀]

def dot_S1024x1024_S3072x1024_S1024x3072_1_1_0_0_n_n : DotDims S1024x1024 S3072x1024 S1024x3072 where
  lhsContracting := [1]
  rhsContracting := [1]
  lhsNonContracting := [0]
  rhsNonContracting := [0]
  lhsBatch := []
  rhsBatch := []
  wf := dot_S1024x1024_S3072x1024_S1024x3072_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8x1024x3072 : Shape := ⟨3, ![8, 1024, 3072]⟩
abbrev S1x1x3072 : Shape := ⟨3, ![1, 1, 3072]⟩
abbrev S8x1024x16x192 : Shape := ⟨4, ![8, 1024, 16, 192]⟩
abbrev S8x1024x16x64 : Shape := ⟨4, ![8, 1024, 16, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x1024x3072, .f32⟩
  | .hbm, ⟨6, _⟩ => ⟨S1x1x3072, .f32⟩
  | .hbm, ⟨7, _⟩ => ⟨S8x1024x3072, .f32⟩
  | .hbm, ⟨8, _⟩ => ⟨S8x1024x3072, .f32⟩
  | .hbm, ⟨9, _⟩ => ⟨S8x1024x16x192, .f32⟩
  | .hbm, ⟨10, _⟩ => ⟨S8x1024x16x64, .f32⟩
  | .hbm, ⟨11, _⟩ => ⟨S8x1024x16x64, .f32⟩
  | .hbm, ⟨12, _⟩ => ⟨S8x1024x16x64, .f32⟩
  | .hbm, ⟨13, _⟩ => ⟨S8x16x1024x64, .f32⟩
  | .hbm, ⟨14, _⟩ => ⟨S8x16x1024x64, .f32⟩
  | .hbm, ⟨15, _⟩ => ⟨S8x16x1024x64, .f32⟩
  | .hbm, ⟨16, _⟩ => ⟨S8x16x1024x1024, .f32⟩
  | .hbm, ⟨17, _⟩ => ⟨S_, .f32⟩
  | .hbm, ⟨18, _⟩ => ⟨S8x16x1024x1024, .f32⟩
  | .hbm, ⟨19, _⟩ => ⟨S8x16x1024x1024, .f32⟩
  | .hbm, ⟨20, _⟩ => ⟨S_, .f32⟩
  | .hbm, ⟨21, _⟩ => ⟨S8x16x1024, .f32⟩
  | .hbm, ⟨22, _⟩ => ⟨S_, .f32⟩
  | .hbm, ⟨23, _⟩ => ⟨S8x16x1024, .f32⟩
  | .hbm, ⟨24, _⟩ => ⟨S8x16x1024, .f32⟩
  | .hbm, ⟨25, _⟩ => ⟨S8x16x1024x1, .f32⟩
  | .hbm, ⟨26, _⟩ => ⟨S8x16x1024x1024, .f32⟩
  | .hbm, ⟨27, _⟩ => ⟨S8x16x1024x1024, .f32⟩
  | .hbm, ⟨28, _⟩ => ⟨S8x16x1024x1024, .f32⟩
  | .hbm, ⟨29, _⟩ => ⟨S_, .f32⟩
  | .hbm, ⟨30, _⟩ => ⟨S8x16x1024, .f32⟩
  | .hbm, ⟨31, _⟩ => ⟨S8x16x1024x1, .f32⟩
  | .hbm, ⟨32, _⟩ => ⟨S8x16x1024x1024, .f32⟩
  | .hbm, ⟨33, _⟩ => ⟨S8x16x1024x1024, .f32⟩
  | .hbm, ⟨34, _⟩ => ⟨S8x16x1024x64, .f32⟩
  | .hbm, ⟨35, _⟩ => ⟨S8x1024x16x64, .f32⟩
  | .hbm, ⟨36, _⟩ => ⟨S8x1024x1024, .f32⟩
  | .hbm, ⟨37, _⟩ => ⟨S8x1024x1024, .f32⟩
  | .hbm, ⟨38, _⟩ => ⟨S1x1x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x1024x3072_0_1_2 : S1x1x3072.BroadcastsInDim S8x1024x3072 (![0, 1, 2] : Fin 3 → Fin S8x1024x3072.rank)
  shapeCasts_S8x1024x3072_S8x1024x16x192 : S8x1024x3072.ShapeCasts S8x1024x16x192
  slices_S8x1024x16x192_S8x1024x16x64_0_0_0_0 : S8x1024x16x192.Slices ![0, 0, 0, 0] S8x1024x16x64
  slices_S8x1024x16x192_S8x1024x16x64_0_0_0_64 : S8x1024x16x192.Slices ![0, 0, 0, 64] S8x1024x16x64
  slices_S8x1024x16x192_S8x1024x16x64_0_0_0_128 : S8x1024x16x192.Slices ![0, 0, 0, 128] S8x1024x16x64
  transposes_S8x1024x16x64_S8x16x1024x64_0_2_1_3 : S8x1024x16x64.Transposes [0, 2, 1, 3] S8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.Spec.lean ====
/-
  Multi-head self-attention with input and output projections, as one function of the argument arrays over the
  extended reals.

  For an input `x : [8, 1024, 1024]` (batch, position, channel), a projection weight `w : [3072, 1024]` with bias
  `b : [3072]`, and an output weight `fw : [1024, 1024]` with bias `fb : [1024]`:
    * the projected row of position `n` is `x[n] · wᵀ + b`, 3072 numbers laid out head by head, each head holding
      64 query, 64 key and 64 value channels in that order (row `h·192 + third·64 + d` of `w`);
    * head `h` scores position `i` against position `j` by the inner product of query `i` and key `j` times 1/8,
      turns each row of scores into weights `exp (s − max s) / ∑ exp (s − max s)`, and mixes the values with them;
    * the heads' 64 outputs are laid side by side (channel `h·64 + d`) and projected by `fw`, plus `fb`, plus `x`.
-/
import Idealize.ShloMosaic.Lib.ValueIdx
import Idealize.ShloMosaic.PureOps.Ideal.Laws

noncomputable section

namespace Cert.Attn

open Idealize.ShloMosaic Idealize.ShloMosaic.ValueIdx

/-- A [8, 1024, 1024] array of extended reals. -/
abbrev Cube := (⟨3, ![8, 1024, 1024]⟩ : Shape).Idx → EReal

/-- One head: the softmax-weighted mix of the value rows. `q i`, `k j`, `v j` are the 64-channel rows of positions
    `i`, `j`; `scale` multiplies the scores, `floor` is the value the row maximum starts from. Entry `(i, d)`. -/
def head (q k v : Fin 1024 → Fin 64 → EReal) (scale floor : EReal) (i : Fin 1024) (d : Fin 64) : EReal :=
  ∑ j : Fin 1024,
    Ideal.div
      (Ideal.exp ((∑ e : Fin 64, q i e * k j e) * scale
        - (Finset.univ : Finset (Fin 1024)).fold max floor (fun j' => (∑ e : Fin 64, q i e * k j' e) * scale)))
      (∑ j'' : Fin 1024, Ideal.exp ((∑ e : Fin 64, q i e * k j'' e) * scale
        - (Finset.univ : Finset (Fin 1024)).fold max floor (fun j' => (∑ e : Fin 64, q i e * k j' e) * scale)))
    * v j d

/-- Channel `h·64 + d` of a 1024-channel row. -/
def chan (h : Fin 16) (d : Fin 64) : Fin 1024 := ⟨h.val * 64 + d.val, by have := h.isLt; have := d.isLt; omega⟩

/-- The head a channel belongs to, and its place in the head. -/
def headOf (c : Fin 1024) : Fin 16 := ⟨c.val / 64, by have := c.isLt; omega⟩
def placeOf (c : Fin 1024) : Fin 64 := ⟨c.val % 64, by omega⟩

/-- Attention over three [8, 1024, 1024] arrays of queries, keys and values whose channel `h·64 + d` belongs to head `h`:
    entry `(b, n, c)` is head `c / 64` of batch `b` at `(n, c % 64)`. -/
def attend (scale floor : EReal) (q k v : Cube) : Cube := fun i =>
  head (fun n e => q (ix3 (i 0) n (chan (headOf (i 2)) e))) (fun n e => k (ix3 (i 0) n (chan (headOf (i 2)) e)))
    (fun n e => v (ix3 (i 0) n (chan (headOf (i 2)) e))) scale floor (i 1) (placeOf (i 2))

/-- Row `h·192 + third·64 + d` of the projection weight: the `third`-th group (0 queries, 1 keys, 2 values) of the head
    that channel `c = h·64 + d` belongs to. -/
def wrow (third : Fin 3) (c : Fin 1024) : Fin 3072 :=
  ⟨(c.val / 64) * 192 + third.val * 64 + c.val % 64, by have := c.isLt; have := third.isLt; omega⟩

/-- The projected queries (`third = 0`), keys (1) or values (2): entry `(b, n, c)` is `x[b, n] · w[row] + bias[row]`. -/
def project (x : Cube) (w : (⟨2, ![3072, 1024]⟩ : Shape).Idx → EReal) (b : (⟨1, ![3072]⟩ : Shape).Idx → EReal)
    (third : Fin 3) : Cube := fun i =>
  (∑ d : Fin 1024, x (ix3 (i 0) (i 1) d) * w (ix2 (wrow third (i 2)) d)) + b (ix1 (wrow third (i 2)))

/-- The output projection with its bias and the residual: entry `(b, n, e)` is `a[b, n] · fw[e] + fb[e] + x[b, n, e]`. -/
def finish (a : Cube) (fw : (⟨2, ![1024, 1024]⟩ : Shape).Idx → EReal) (fb : (⟨1, ![1024]⟩ : Shape).Idx → EReal)
    (x : Cube) : Cube := fun i =>
  (∑ c : Fin 1024, a (ix3 (i 0) (i 1) c) * fw (ix2 (i 2) c)) + fb (ix1 (i 2)) + x i

/-- The whole layer. -/
def layer (scale floor : EReal) (x : Cube) (w : (⟨2, ![3072, 1024]⟩ : Shape).Idx → EReal)
    (b : (⟨1, ![3072]⟩ : Shape).Idx → EReal) (fw : (⟨2, ![1024, 1024]⟩ : Shape).Idx → EReal)
    (fb : (⟨1, ![1024]⟩ : Shape).Idx → EReal) : Cube :=
  finish (attend scale floor (project x w b 0) (project x w b 1) (project x w b 2)) fw fb x

/-- Row `third·1024 + c` of a 3072-row array laid out group by group (queries, keys, values), 1024 rows each. -/
def band (third : Fin 3) (c : Fin 1024) : Fin 3072 := ⟨third.val * 1024 + c.val, by have := third.isLt; have := c.isLt; omega⟩
theorem band_val (third : Fin 3) (c : Fin 1024) : (band third c).val = third.val * 1024 + c.val := rfl

theorem chan_val (h : Fin 16) (d : Fin 64) : (chan h d).val = h.val * 64 + d.val := rfl
theorem headOf_val (c : Fin 1024) : (headOf c).val = c.val / 64 := rfl
theorem placeOf_val (c : Fin 1024) : (placeOf c).val = c.val % 64 := rfl
theorem wrow_val (third : Fin 3) (c : Fin 1024) : (wrow third c).val = (c.val / 64) * 192 + third.val * 64 + c.val % 64 := rfl

theorem chan_headOf_placeOf (c : Fin 1024) : chan (headOf c) (placeOf c) = c :=
  Fin.ext (by rw [chan_val, headOf_val, placeOf_val]; omega)

theorem headOf_chan (h : Fin 16) (d : Fin 64) : headOf (chan h d) = h :=
  Fin.ext (by rw [headOf_val, chan_val]; have := d.isLt; omega)

theorem placeOf_chan (h : Fin 16) (d : Fin 64) : placeOf (chan h d) = d :=
  Fin.ext (by rw [placeOf_val, chan_val]; have := d.isLt; omega)

end Cert.Attn

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibMergeRows.lean ====
/-
  A stack of matrices `[G, m, n]` and the same entries laid out as one tall matrix `[G·m, n]` (row `g·m + a` is
  row `a` of matrix `g`), a block of columns of a matrix, and the "keep the axis" forms of a row statistic
  (`[G, m] → [G, m, 1] → [G, m, n]`: the statistic of row `(g, a)` repeated along the row), each read at an index.
-/
import Idealize.ShloMosaic.Lib.Pipeline.Value
import Idealize.ShloMosaic.Lib.ValueIdx

namespace Cert.Lib.MergeRows

open Idealize.ShloMosaic Idealize.ShloMosaic.ValueIdx

variable {α : Type} {G m n R : Nat}

/-- The stack read as one tall matrix: row `r = g·m + a`, column `c`, is entry `(g, a, c)`. -/
theorem merge_apply (x : (⟨3, ![G, m, n]⟩ : Shape).Idx → α) (h : (⟨3, ![G, m, n]⟩ : Shape).ShapeCasts ⟨2, ![R, n]⟩)
    (g : Fin G) (a : Fin m) (c : Fin n) (r : Fin R) (hr : r.val = g.val * m + a.val) :
    shapeCast ⟨2, ![R, n]⟩ x h (ix2 r c) = x (ix3 g a c) :=
  shapeCast_apply x h (ix2 r c) (ix3 g a c) (by
    rw [Shape.rowMajor_val_three, Shape.rowMajor_val_two]
    show (g.val * m + a.val) * n + c.val = r.val * n + c.val
    rw [hr])

/-- The tall matrix read as a stack: entry `(g, a, c)` is row `r = g·m + a`, column `c`. -/
theorem split_apply (y : (⟨2, ![R, n]⟩ : Shape).Idx → α) (h : (⟨2, ![R, n]⟩ : Shape).ShapeCasts ⟨3, ![G, m, n]⟩)
    (g : Fin G) (a : Fin m) (c : Fin n) (r : Fin R) (hr : r.val = g.val * m + a.val) :
    shapeCast ⟨3, ![G, m, n]⟩ y h (ix3 g a c) = y (ix2 r c) :=
  shapeCast_apply y h (ix3 g a c) (ix2 r c) (by
    rw [Shape.rowMajor_val_three, Shape.rowMajor_val_two]
    show r.val * n + c.val = (g.val * m + a.val) * n + c.val
    rw [hr])

/-- Columns `off .. off + n` of a matrix with `N` columns: column `c` of the block is column `off + c`. -/
theorem columns_apply {N : Nat} (off : Nat) (y : (⟨2, ![R, N]⟩ : Shape).Idx → α)
    (h : (⟨2, ![R, N]⟩ : Shape).Slices ![0, off] ⟨2, ![R, n]⟩) (r : Fin R) (c : Fin n) (c' : Fin N)
    (hc : c'.val = off + c.val) :
    extractStridedSlice ⟨2, ![R, n]⟩ ![0, off] y h (ix2 r c) = y (ix2 r c') :=
  extractStridedSlice_apply ![0, off] y h (ix2 r c) (ix2 r c') (fun a => match a with
    | ⟨0, _⟩ => by show r.val = 0 + r.val; omega
    | ⟨1, _⟩ => by show c'.val = off + c.val; exact hc)

/-- A statistic per row given a trailing unit axis: entry `(g, a, 0)` is the statistic of row `(g, a)`. -/
theorem keep_apply (v : (⟨2, ![G, m]⟩ : Shape).Idx → α) (h : (⟨2, ![G, m]⟩ : Shape).ShapeCasts ⟨3, ![G, m, 1]⟩)
    (g : Fin G) (a : Fin m) :
    shapeCast ⟨3, ![G, m, 1]⟩ v h (ix3 g a (0 : Fin 1)) = v (ix2 g a) :=
  shapeCast_apply v h (ix3 g a (0 : Fin 1)) (ix2 g a) (by
    rw [Shape.rowMajor_val_three, Shape.rowMajor_val_two]
    show g.val * m + a.val = (g.val * m + a.val) * 1 + 0
    omega)

/-- That unit axis repeated along the row: entry `(g, a, c)` is entry `(g, a, 0)`. -/
theorem along_apply (w : (⟨3, ![G, m, 1]⟩ : Shape).Idx → α)
    (h : (⟨3, ![G, m, 1]⟩ : Shape).Broadcasts ⟨3, ![G, m, n]⟩) (g : Fin G) (a : Fin m) (c : Fin n) :
    broadcastTo ⟨3, ![G, m, n]⟩ w h (ix3 g a c) = w (ix3 g a (0 : Fin 1)) :=
  broadcastTo_apply w h (ix3 g a c) (ix3 g a (0 : Fin 1)) (fun ax => match ax with
    | ⟨0, _⟩ => by
      show g.val = if G = 1 then 0 else g.val
      split
      · have := g.isLt; omega
      · rfl
    | ⟨1, _⟩ => by
      show a.val = if m = 1 then 0 else a.val
      split
      · have := a.isLt; omega
      · rfl
    | ⟨2, _⟩ => rfl)

end Cert.Lib.MergeRows
-- ==== Proof.Region0.lean ====
/-
  The projection kernel's three output arrays, as functions of its input arrays.

  At grid point `t` the body takes rows `t·1024 … t·1024 + 1023` of the [8192, 1024] input `X`, the whole [3072, 1024]
  weight `W` and the [1, 3072] bias `B`, forms `X · Wᵀ + B` (1024 × 3072) and stores its three bands of 1024 columns into
  the three outputs. Output `third` therefore ends holding, at `(r, c)`, `∑ d, X (r, d) · W (third·1024 + c, d) + B (0, third·1024 + c)`.
-/
import proofs.«111769_j14559939133659_2_alg».proof.Proof.Gen.KernelIdeal.Frame
import proofs.«111769_j14559939133659_2_alg».proof.Proof.Spec
import proofs.«111769_j14559939133659_2_alg».proof.Proof.LibTransposedProduct
import proofs.«111769_j14559939133659_2_alg».proof.Proof.LibRepeat
import proofs.«111769_j14559939133659_2_alg».proof.Proof.LibMergeRows
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Idealize.ShloMosaic Idealize.ShloMosaic.TcCoe Idealize.ShloMosaic.ValueIdx Idealize.SL.Sem
open Idealize.ShloMosaic.Pipeline (Dat)
open Cert.Attn (band band_val)

theorem hz : (![0, 0] : Fin 2 → Nat) = fun _ => 0 := funext fun a => by fin_cases a <;> rfl

/-- The array output `third` ends holding. -/
def projected (third : Fin 3) (X : S8192x1024.Idx → EReal) (W : S3072x1024.Idx → EReal) (B : S1x3072.Idx → EReal) :
    S8192x1024.Idx → EReal := fun i =>
  (∑ d : Fin 1024, X (ix2 (i 0) d) * W (ix2 (band third (i 1)) d)) + B (ix2 (0 : Fin 1) (band third (i 1)))

/-- The product with the bias added, at `(r, e)`. -/
theorem pay1_apply (X : FVec Ideal S1024x1024 .f32) (W : FVec Ideal S3072x1024 .bf16) (B : FVec Ideal S1x3072 .f32)
    (r : Fin 1024) (e : Fin 3072) :
    Gen.k0_pay1 (F := Ideal) X W B (ix2 r e) = (∑ d : Fin 1024, X (ix2 r d) * W (ix2 e d)) + B (ix2 (0 : Fin 1) e) := by
  unfold Gen.k0_pay1
  refine congrArg₂ (· + ·) ?_ ?_
  · refine (Cert.Lib.TransposedProduct.matmul_apply _ rfl none _ _ r e).trans ?_
    simp only [shapeCast_self, truncf_apply]
  · refine (Cert.Lib.Repeat.rowRepeat_apply _ _ r e).trans ?_
    simp only [shapeCast_self]

theorem k0_pay2_apply (X : FVec Ideal S1024x1024 .f32) (W : FVec Ideal S3072x1024 .bf16) (B : FVec Ideal S1x3072 .f32)
    (r cc : Fin 1024) :
    Gen.k0_pay2 (F := Ideal) X W B (ix2 r cc)
      = (∑ d : Fin 1024, X (ix2 r d) * W (ix2 (band (0 : Fin 3) cc) d)) + B (ix2 (0 : Fin 1) (band (0 : Fin 3) cc)) := by
  unfold Gen.k0_pay2
  show extractStridedSlice S1024x1024 ![0, 0] (Gen.k0_pay1 (F := Ideal) X W B) Facts₀.slices_S1024x3072_o0_0_S1024x1024 (ix2 r cc) = _
  refine (Cert.Lib.MergeRows.columns_apply 0 _ _ r cc (band (0 : Fin 3) cc) (by rw [band_val]; first | rfl | simp)).trans ?_
  exact pay1_apply X W B r _

theorem k0_pay3_apply (X : FVec Ideal S1024x1024 .f32) (W : FVec Ideal S3072x1024 .bf16) (B : FVec Ideal S1x3072 .f32)
    (r cc : Fin 1024) :
    Gen.k0_pay3 (F := Ideal) X W B (ix2 r cc)
      = (∑ d : Fin 1024, X (ix2 r d) * W (ix2 (band (1 : Fin 3) cc) d)) + B (ix2 (0 : Fin 1) (band (1 : Fin 3) cc)) := by
  unfold Gen.k0_pay3
  show extractStridedSlice S1024x1024 ![0, 1024] (Gen.k0_pay1 (F := Ideal) X W B) Facts₀.slices_S1024x3072_o0_1024_S1024x1024 (ix2 r cc) = _
  refine (Cert.Lib.MergeRows.columns_apply 1024 _ _ r cc (band (1 : Fin 3) cc) (by rw [band_val]; first | rfl | simp)).trans ?_
  exact pay1_apply X W B r _

theorem k0_pay4_apply (X : FVec Ideal S1024x1024 .f32) (W : FVec Ideal S3072x1024 .bf16) (B : FVec Ideal S1x3072 .f32)
    (r cc : Fin 1024) :
    Gen.k0_pay4 (F := Ideal) X W B (ix2 r cc)
      = (∑ d : Fin 1024, X (ix2 r d) * W (ix2 (band (2 : Fin 3) cc) d)) + B (ix2 (0 : Fin 1) (band (2 : Fin 3) cc)) := by
  unfold Gen.k0_pay4
  show extractStridedSlice S1024x1024 ![0, 2048] (Gen.k0_pay1 (F := Ideal) X W B) Facts₀.slices_S1024x3072_o0_2048_S1024x1024 (ix2 r cc) = _
  refine (Cert.Lib.MergeRows.columns_apply 2048 _ _ r cc (band (2 : Fin 3) cc) (by rw [band_val]; first | rfl | simp)).trans ?_
  exact pay1_apply X W B r _

variable (V : (c : Dev nD) → (b : Ref sig .tc) → Buf (Elt Ideal) ((c : Thread nD τ).loc b))

/-- The input window is at block `(t, 0)` at point `t`, the weight and the bias are whole, each output is at `(t, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input block at point `t` holds rows `t·1024 + r` of the input array. -/
theorem hb0 (c : Dev nD) (t : Fin cfg0.N) (ht : t.val < 8) (r d : Fin 1024) :
    Gen.iblk0 V c 0 t (ix2 r d) = V c main_v0 (ix2 (⟨t.val * 1024 + r.val, by have := r.isLt; omega⟩ : Fin 8192) d) := by
  obtain ⟨e00, e01, -⟩ := idx_facts t
  show V c main_v0 (((cfg0.win 0).blk t).view.emb (ix2 r d)) = _
  congr 1
  funext a; apply Fin.ext
  match a with
  | ⟨0, _⟩ => show win0_0.index t (0 : Fin 2) * 1024 + 1 * r.val = t.val * 1024 + r.val; omega
  | ⟨1, _⟩ => show win0_0.index t (1 : Fin 2) * 1024 + 1 * d.val = d.val; omega

/-- The weight block is the weight array. -/
theorem hb1 (c : Dev nD) (t : Fin cfg0.N) (e : Fin 3072) (d : Fin 1024) :
    Gen.iblk0 V c 1 t (ix2 e d) = V c main_v4 (ix2 e d) := by
  obtain ⟨-, -, e10, e11, -⟩ := idx_facts t
  show V c main_v4 (((cfg0.win 1).blk t).view.emb (ix2 e d)) = _
  congr 1
  funext a; apply Fin.ext
  match a with
  | ⟨0, _⟩ => show win0_1.index t (0 : Fin 2) * 3072 + 1 * e.val = e.val; omega
  | ⟨1, _⟩ => show win0_1.index t (1 : Fin 2) * 1024 + 1 * d.val = d.val; omega

/-- The bias block is the bias array. -/
theorem hb2 (c : Dev nD) (t : Fin cfg0.N) (e : Fin 3072) :
    Gen.iblk0 V c 2 t (ix2 (0 : Fin 1) e) = V c main_v8 (ix2 (0 : Fin 1) e) := by
  obtain ⟨-, -, -, -, e20, e21, -⟩ := idx_facts t
  show V c main_v8 (((cfg0.win 2).blk t).view.emb (ix2 (0 : Fin 1) e)) = _
  congr 1
  funext a; apply Fin.ext
  match a with
  | ⟨0, _⟩ => show win0_2.index t (0 : Fin 2) * 1 + 1 * 0 = 0; omega
  | ⟨1, _⟩ => show win0_2.index t (1 : Fin 2) * 3072 + 1 * e.val = e.val; omega

/-- What point `t` writes back through output window 3 is block `t` of `projected 0`. -/
theorem flushed3_eq (c : Dev nD) (t : Fin cfg0.N) :
    (Gen.dat0 V c).flushed 3 t = ((cfg0.win 3).blk t).view.read (Elt Ideal)
      (projected (0 : Fin 3) (V c main_v0) (V c main_v4) (V c main_v8)) := by
  show (cfg0.win 3).cut (grid0.coords t) ((Gen.dat0 V c).after 3 t) = _
  rw [Gen.after0_3]
  unfold Gen.out0_3
  rw [View.canon_unit_zero hz]
  simp only [View.ld_unit_zero (S := S1024x1024) hz, View.ld_unit_zero (S := S3072x1024) hz, View.ld_unit_zero (S := S1x3072) hz]
  obtain ⟨e00, e01, e10, e11, e20, e21, e30, e31, e40, e41, e50, e51⟩ := idx_facts t
  have ht : t.val < 8 := by have := t.isLt; have hN : cfg0.N = 8 := Gen.N_0; omega
  refine funext fun (j : S1024x1024.Idx) => ?_
  obtain ⟨r, cc, rfl⟩ : ∃ (r cc : Fin 1024), j = ix2 r cc := ⟨j 0, j 1, eq_ix2 j⟩
  have hrow : t.val * 1024 + r.val < 8192 := by have := r.isLt; omega
  have h3 : ((cfg0.win 3).blk t).view.emb (ix2 r cc) = ix2 (⟨t.val * 1024 + r.val, hrow⟩ : Fin 8192) cc := by
    funext a; apply Fin.ext
    match a with
    | ⟨0, _⟩ => show win0_3.index t (0 : Fin 2) * 1024 + 1 * r.val = t.val * 1024 + r.val; omega
    | ⟨1, _⟩ => show win0_3.index t (1 : Fin 2) * 1024 + 1 * cc.val = cc.val; omega
  show Gen.k0_pay2 (F := Ideal) (Gen.iblk0 V c 0 t) (Gen.iblk0 V c 1 t) (Gen.iblk0 V c 2 t) (ix2 r cc)
    = projected (0 : Fin 3) (V c main_v0) (V c main_v4) (V c main_v8) (((cfg0.win 3).blk t).view.emb (ix2 r cc))
  rw [h3, k0_pay2_apply]
  unfold projected
  exact congrArg₂ (· + ·) (Finset.sum_congr rfl fun d _ => congrArg₂ (· * ·) (hb0 V c t ht r d) (hb1 V c t _ d)) (hb2 V c t _)

theorem mem_blk3 (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9_0).slice (win0_3.rect t)).set ↔ _
  rw [View.set_slice_whole, Rect.mem_set_unit]
  exact Iff.rfl

theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := Gen.N_0
  refine ⟨⟨(i 0).val / 1024, by omega⟩, Gen.flush0_3 _, ?_⟩
  obtain ⟨e00, e01, e10, e11, e20, e21, e30, e31, e40, e41, e50, e51⟩ := idx_facts ⟨(i 0).val / 1024, by omega⟩
  rw [mem_blk3]
  intro a
  match a with
  | ⟨0, _⟩ => show win0_3.index _ (0 : Fin 2) * 1024 ≤ (i 0).val ∧ (i 0).val < win0_3.index _ (0 : Fin 2) * 1024 + 1024; rw [e30]; dsimp only; omega
  | ⟨1, _⟩ => show win0_3.index _ (1 : Fin 2) * 1024 ≤ (i 1).val ∧ (i 1).val < win0_3.index _ (1 : Fin 2) * 1024 + 1024; rw [e31]; omega

/-- The array of output window 3 after the region. -/
theorem final3 (c : Dev nD) : (Gen.dat0 V c).arrAt 3 cfg0.N = projected (0 : Fin 3) (V c main_v0) (V c main_v4) (V c main_v8) :=
  (Gen.dat0 V c).arrAt_eq_of_cover 3 _ (fun t _ => flushed3_eq V c t) fun i => cover3 i

/-- What point `t` writes back through output window 4 is block `t` of `projected 1`. -/
theorem flushed4_eq (c : Dev nD) (t : Fin cfg0.N) :
    (Gen.dat0 V c).flushed 4 t = ((cfg0.win 4).blk t).view.read (Elt Ideal)
      (projected (1 : Fin 3) (V c main_v0) (V c main_v4) (V c main_v8)) := by
  show (cfg0.win 4).cut (grid0.coords t) ((Gen.dat0 V c).after 4 t) = _
  rw [Gen.after0_4]
  unfold Gen.out0_4
  rw [View.canon_unit_zero hz]
  simp only [View.ld_unit_zero (S := S1024x1024) hz, View.ld_unit_zero (S := S3072x1024) hz, View.ld_unit_zero (S := S1x3072) hz]
  obtain ⟨e00, e01, e10, e11, e20, e21, e30, e31, e40, e41, e50, e51⟩ := idx_facts t
  have ht : t.val < 8 := by have := t.isLt; have hN : cfg0.N = 8 := Gen.N_0; omega
  refine funext fun (j : S1024x1024.Idx) => ?_
  obtain ⟨r, cc, rfl⟩ : ∃ (r cc : Fin 1024), j = ix2 r cc := ⟨j 0, j 1, eq_ix2 j⟩
  have hrow : t.val * 1024 + r.val < 8192 := by have := r.isLt; omega
  have h3 : ((cfg0.win 4).blk t).view.emb (ix2 r cc) = ix2 (⟨t.val * 1024 + r.val, hrow⟩ : Fin 8192) cc := by
    funext a; apply Fin.ext
    match a with
    | ⟨0, _⟩ => show win0_4.index t (0 : Fin 2) * 1024 + 1 * r.val = t.val * 1024 + r.val; omega
    | ⟨1, _⟩ => show win0_4.index t (1 : Fin 2) * 1024 + 1 * cc.val = cc.val; omega
  show Gen.k0_pay3 (F := Ideal) (Gen.iblk0 V c 0 t) (Gen.iblk0 V c 1 t) (Gen.iblk0 V c 2 t) (ix2 r cc)
    = projected (1 : Fin 3) (V c main_v0) (V c main_v4) (V c main_v8) (((cfg0.win 4).blk t).view.emb (ix2 r cc))
  rw [h3, k0_pay3_apply]
  unfold projected
  exact congrArg₂ (· + ·) (Finset.sum_congr rfl fun d _ => congrArg₂ (· * ·) (hb0 V c t ht r d) (hb1 V c t _ d)) (hb2 V c t _)

theorem mem_blk4 (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v9_1).slice (win0_4.rect t)).set ↔ _
  rw [View.set_slice_whole, Rect.mem_set_unit]
  exact Iff.rfl

theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 8 := Gen.N_0
  refine ⟨⟨(i 0).val / 1024, by omega⟩, Gen.flush0_4 _, ?_⟩
  obtain ⟨e00, e01, e10, e11, e20, e21, e30, e31, e40, e41, e50, e51⟩ := idx_facts ⟨(i 0).val / 1024, by omega⟩
  rw [mem_blk4]
  intro a
  match a with
  | ⟨0, _⟩ => show win0_4.index _ (0 : Fin 2) * 1024 ≤ (i 0).val ∧ (i 0).val < win0_4.index _ (0 : Fin 2) * 1024 + 1024; rw [e40]; dsimp only; omega
  | ⟨1, _⟩ => show win0_4.index _ (1 : Fin 2) * 1024 ≤ (i 1).val ∧ (i 1).val < win0_4.index _ (1 : Fin 2) * 1024 + 1024; rw [e41]; omega

/-- The array of output window 4 after the region. -/
theorem final4 (c : Dev nD) : (Gen.dat0 V c).arrAt 4 cfg0.N = projected (1 : Fin 3) (V c main_v0) (V c main_v4) (V c main_v8) :=
  (Gen.dat0 V c).arrAt_eq_of_cover 4 _ (fun t _ => flushed4_eq V c t) fun i => cover4 i

/-- What point `t` writes back through output window 5 is block `t` of `projected 2`. -/
theorem flushed5_eq (c : Dev nD) (t : Fin cfg0.N) :
    (Gen.dat0 V c).flushed 5 t = ((cfg0.win 5).blk t).view.read (Elt Ideal)
      (projected (2 : Fin 3) (V c main_v0) (V c main_v4) (V c main_v8)) := by
  show (cfg0.win 5).cut (grid0.coords t) ((Gen.dat0 V c).after 5 t) = _
  rw [Gen.after0_5]
  unfold Gen.out0_5
  rw [View.canon_unit_zero hz]
  simp only [View.ld_unit_zero (S := S1024x1024) hz, View.ld_unit_zero (S := S3072x1024) hz, View.ld_unit_zero (S := S1x3072) hz]
  obtain ⟨e00, e01, e10, e11, e20, e21, e30, e31, e40, e41, e50, e51⟩ := idx_facts t
  have ht : t.val < 8 := by have := t.isLt; have hN : cfg0.N = 8 := Gen.N_0; omega
  refine funext fun (j : S1024x1024.Idx) => ?_
  obtain ⟨r, cc, rfl⟩ : ∃ (r cc : Fin 1024), j = ix2 r cc := ⟨j 0, j 1, eq_ix2 j⟩
  have hrow : t.val * 1024 + r.val < 8192 := by have := r.isLt; omega
  have h3 : ((cfg0.win 5).blk t).view.emb (ix2 r cc) = ix2 (⟨t.val * 1024 + r.val, hrow⟩ : Fin 8192) cc := by
    funext a; apply Fin.ext
    match a with
    | ⟨0, _⟩ => show win0_5.index t (0 : Fin 2) * 1024 + 1 * r.val = t.val * 1024 + r.val; omega
    | ⟨1, _⟩ => show win0_5.index t (1 : Fin 2) * 1024 + 1 * cc.val = cc.val; omega
  show Gen.k0_pay4 (F := Ideal) (Gen.iblk0 V c 0 t) (Gen.iblk0 V c 1 t) (Gen.iblk0 V c 2 t) (ix2 r cc)
    = projected (2 : Fin 3) (V c main_v0) (V c main_v4) (V c main_v8) (((cfg0.win 5).blk t).view.emb (ix2 r cc))
  rw [h3, k0_pay4_apply]
  unfold projected
  exact congrArg₂ (· + ·) (Finset.sum_congr rfl fun d _ => congrArg₂ (· * ·) (hb0 V c t ht r d) (hb1 V c t _ d)) (hb2 V c t _)

theorem mem_blk5 (t : Fin cfg0.N) (i : S8192x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v9_2).slice (win0_5.rect t)).set ↔ _
  rw [View.set_slice_whole, Rect.mem_set_unit]
  exact Iff.rfl

theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 8 := Gen.N_0
  refine ⟨⟨(i 0).val / 1024, by omega⟩, Gen.flush0_5 _, ?_⟩
  obtain ⟨e00, e01, e10, e11, e20, e21, e30, e31, e40, e41, e50, e51⟩ := idx_facts ⟨(i 0).val / 1024, by omega⟩
  rw [mem_blk5]
  intro a
  match a with
  | ⟨0, _⟩ => show win0_5.index _ (0 : Fin 2) * 1024 ≤ (i 0).val ∧ (i 0).val < win0_5.index _ (0 : Fin 2) * 1024 + 1024; rw [e50]; dsimp only; omega
  | ⟨1, _⟩ => show win0_5.index _ (1 : Fin 2) * 1024 ≤ (i 1).val ∧ (i 1).val < win0_5.index _ (1 : Fin 2) * 1024 + 1024; rw [e51]; omega

/-- The array of output window 5 after the region. -/
theorem final5 (c : Dev nD) : (Gen.dat0 V c).arrAt 5 cfg0.N = projected (2 : Fin 3) (V c main_v0) (V c main_v4) (V c main_v8) :=
  (Gen.dat0 V c).arrAt_eq_of_cover 5 _ (fun t _ => flushed5_eq V c t) fun i => cover5 i

end Cert.KernelIdeal.Region0

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.HeadValue.lean ====
/-
  One head of the attention kernel, read at an index over the extended reals.

  The kernel's body computes, for the 64-channel query, key and value blocks of one head, the scaled score matrix
  `q · kᵀ / 8`, each row's maximum, the exponentials of the scores minus that maximum, each row's sum of them, the
  quotients, and their product with the values. Entry `(i, d)` of the result is therefore the softmax-weighted sum
  `Cert.Attn.head q k v (1/8) (−∞) i d`; changes of float format are the identity here.
-/
import proofs.«111769_j14559939133659_2_alg».proof.Proof.Gen.KernelIdeal.Skeleton
import proofs.«111769_j14559939133659_2_alg».proof.Proof.Spec
import proofs.«111769_j14559939133659_2_alg».proof.Proof.LibPlainProduct
import proofs.«111769_j14559939133659_2_alg».proof.Proof.LibTransposedProduct
import proofs.«111769_j14559939133659_2_alg».proof.Proof.LibRepeat
import proofs.«111769_j14559939133659_2_alg».proof.Proof.LibColumn
import Idealize.ShloMosaic.Lib.ValueLayout
import Idealize.ShloMosaic.Lib.ValueIdx
import Idealize.ShloMosaic.PureOps.Ideal.Laws

noncomputable section

namespace Cert.KernelIdeal.HeadValue

open Cert.KernelIdeal Idealize.ShloMosaic Idealize.ShloMosaic.ValueIdx
open Cert.KernelIdeal.Facts₀ Cert.KernelIdeal.Facts

variable [Cert.KernelIdeal.Facts]

/-- The reduced row index `i` with the column `k` put back is `(i, k)`. -/
theorem lift_eq (i k : Fin 1024) : reduces_S1024x1024_S1024.lift (ix1 i) k = ix2 i k := by
  funext a
  match a with
  | ⟨0, _⟩ => rfl
  | ⟨1, _⟩ => rfl

/-- The scaled scores: entry `(i, j)` is the inner product of row `i` of `A` and row `j` of `B`, times the scale. -/
theorem scores_apply (A B : FVec Ideal S1024x64 .bf16) (i j : Fin 1024) :
    mulf (matmul dot_S1024x64_S1024x64_S1024x1024_1_1_0_0_n_n none A B (constant S1024x1024 .f32 0x00000000#32))
      (broadcast S1024x1024 (Scalar.ofBits (F := Ideal) .f32 0x3E000000#32)) (ix2 i j)
    = (∑ e : Fin 64, A (ix2 i e) * B (ix2 j e)) * Ideal.ofBits .f32 0x3E000000#32 :=
  congrArg (· * Ideal.ofBits .f32 0x3E000000#32) (Cert.Lib.TransposedProduct.matmul_apply _ rfl none A B i j)

/-- A row's maximum, repeated along the row. -/
theorem rowmax_apply (S : FVec Ideal S1024x1024 .f32) (i j : Fin 1024) :
    broadcastTo S1024x1024 (shapeCast S1024x1 (multiReduction .maximumf [1] S1024 S 0xFF800000#32 reduces_S1024x1024_S1024 (.inl rfl) rfl)
      shapeCasts_S1024_S1024x1) broadcasts_S1024x1_S1024x1024 (ix2 i j)
    = (Finset.univ : Finset (Fin 1024)).fold max (Ideal.ofBits .f32 0xFF800000#32) (fun j' => S (ix2 i j')) := by
  refine (Cert.Lib.Repeat.colRepeat_apply _ _ i j).trans ?_
  refine (Cert.Lib.Column.shapeCast_a_a1_apply _ _ i 0).trans ?_
  refine (Ideal.multiReduction_maximumf_single S _ reduces_S1024x1024_S1024 _ _ (ix1 i)).trans ?_
  show (Finset.univ : Finset (Fin 1024)).fold max (Ideal.ofBits .f32 0xFF800000#32) (fun k => S (reduces_S1024x1024_S1024.lift (ix1 i) k)) = _
  exact congrArg (fun f => (Finset.univ : Finset (Fin 1024)).fold max (Ideal.ofBits .f32 0xFF800000#32) f)
    (funext fun k => congrArg S (lift_eq i k))

/-- A row's sum, repeated along the row. -/
theorem rowsum_apply (S : FVec Ideal S1024x1024 .f32) (i j : Fin 1024) :
    broadcastTo S1024x1024 (shapeCast S1024x1 (multiReduction .add [1] S1024 S 0x00000000#32 reduces_S1024x1024_S1024 (.inl rfl) rfl)
      shapeCasts_S1024_S1024x1) broadcasts_S1024x1_S1024x1024 (ix2 i j)
    = ∑ j' : Fin 1024, S (ix2 i j') := by
  refine (Cert.Lib.Repeat.colRepeat_apply _ _ i j).trans ?_
  refine (Cert.Lib.Column.shapeCast_a_a1_apply _ _ i 0).trans ?_
  refine (Ideal.multiReduction_add_single S _ reduces_S1024x1024_S1024 _ _ (ix1 i)).trans ?_
  show ∑ k : Fin 1024, S (reduces_S1024x1024_S1024.lift (ix1 i) k) = _
  simp only [lift_eq]

/-- The body's result for one head, at `(i, d)`: the softmax-weighted sum of the value rows. -/
theorem pay_apply (xq xk xv : FVec Ideal S1x1024x64 .bf16) (u : Fin 1) (i : Fin 1024) (d : Fin 64) :
    Gen.k1_pay1 (F := Ideal) xq xk xv (ix3 u i d)
      = Cert.Attn.head (fun n e => xq (ix3 (0 : Fin 1) n e)) (fun n e => xk (ix3 (0 : Fin 1) n e))
          (fun n e => xv (ix3 (0 : Fin 1) n e)) (Ideal.ofBits .f32 0x3E000000#32) (Ideal.ofBits .f32 0xFF800000#32) i d := by
  unfold Gen.k1_pay1 Cert.Attn.head
  dsimp only
  refine (shapeCast_ab_1ab_apply _ _ u i d).trans ?_
  refine (Cert.PlainProduct.matmul_plain_apply _ rfl none _ _ i d).trans ?_
  refine Finset.sum_congr rfl fun j _ => ?_
  refine congrArg₂ (· * ·) ?_ (shapeCast_1ab_ab_apply xv _ j d)
  show Ideal.div (Ideal.exp (_ - _)) _ = _
  refine congrArg₂ Ideal.div ?_ ?_
  · rw [rowmax_apply]
    simp only [scores_apply, shapeCast_1ab_ab_apply]
  · rw [rowsum_apply]
    refine Finset.sum_congr rfl fun j' _ => ?_
    show Ideal.exp (_ - _) = _
    rw [rowmax_apply]
    simp only [scores_apply, shapeCast_1ab_ab_apply]

end Cert.KernelIdeal.HeadValue

end
-- ==== Proof.Region1.lean ====
/-
  The attention kernel's output array, as one function of its three input arrays.

  At grid point `t` the body handles batch element `t`: for each of the 16 heads it reads the head's 64 channels of the
  query, key and value blocks, computes the head (Proof/HeadValue.lean) and stores it into the same 64 channels of the
  output block. The 16 stores tile the block, so the block is one function of the three input blocks: entry `(n, c)` is
  head `c / 64` at `(n, c % 64)`. The blocks of the 8 points tile the [8, 1024, 1024] array, so the array ends holding
  `Cert.Attn.attend` of the three input arrays.
-/
import proofs.«111769_j14559939133659_2_alg».proof.Proof.Gen.KernelIdeal.Frame
import proofs.«111769_j14559939133659_2_alg».proof.Proof.HeadValue
import Idealize.ShloMosaic.Lib.Pipeline.Value
import Idealize.ShloMosaic.Lib.Tactic

set_option maxRecDepth 16384

noncomputable section

namespace Cert.KernelIdeal.Region1

open Cert.KernelIdeal Idealize.ShloMosaic Idealize.ShloMosaic.TcCoe Idealize.ShloMosaic.ValueIdx Idealize.SL.Sem
open Idealize.ShloMosaic.Pipeline (Dat)
open Cert.Attn

section AnyFloat
variable {F : FTy → Type} [FloatOps F]

/-! The 16 unrolled copies of the head's arithmetic are one function: the copies that the printed body splits across
    two of its parts compose to the unsplit one. -/
theorem pay4_eq (a b c : Vec F S1x1024x64 .bf16) : Gen.k1_pay4 (F := F) (Gen.k1_pay2 a) (Gen.k1_pay3 b) c = Gen.k1_pay1 a b c := rfl
theorem pay7_eq (a b c : Vec F S1x1024x64 .bf16) : Gen.k1_pay7 (F := F) (Gen.k1_pay5 c) (Gen.k1_pay6 a b) = Gen.k1_pay1 a b c := rfl
theorem pay8_eq (a b c : Vec F S1x1024x64 .bf16) : Gen.k1_pay8 (F := F) a b c = Gen.k1_pay1 a b c := rfl
theorem pay9_eq (a b c : Vec F S1x1024x64 .bf16) : Gen.k1_pay9 (F := F) a b c = Gen.k1_pay1 a b c := rfl
theorem pay12_eq (a b c : Vec F S1x1024x64 .bf16) : Gen.k1_pay12 (F := F) (Gen.k1_pay10 a) (Gen.k1_pay11 b) c = Gen.k1_pay1 a b c := rfl
theorem pay15_eq (a b c : Vec F S1x1024x64 .bf16) : Gen.k1_pay15 (F := F) (Gen.k1_pay13 c) (Gen.k1_pay14 a b) = Gen.k1_pay1 a b c := rfl
theorem pay16_eq (a b c : Vec F S1x1024x64 .bf16) : Gen.k1_pay16 (F := F) a b c = Gen.k1_pay1 a b c := rfl
theorem pay17_eq (a b c : Vec F S1x1024x64 .bf16) : Gen.k1_pay17 (F := F) a b c = Gen.k1_pay1 a b c := rfl
theorem pay20_eq (a b c : Vec F S1x1024x64 .bf16) : Gen.k1_pay20 (F := F) (Gen.k1_pay18 a) (Gen.k1_pay19 b) c = Gen.k1_pay1 a b c := rfl
theorem pay23_eq (a b c : Vec F S1x1024x64 .bf16) : Gen.k1_pay23 (F := F) (Gen.k1_pay21 c) (Gen.k1_pay22 a b) = Gen.k1_pay1 a b c := rfl
theorem pay24_eq (a b c : Vec F S1x1024x64 .bf16) : Gen.k1_pay24 (F := F) a b c = Gen.k1_pay1 a b c := rfl
theorem pay25_eq (a b c : Vec F S1x1024x64 .bf16) : Gen.k1_pay25 (F := F) a b c = Gen.k1_pay1 a b c := rfl
theorem pay28_eq (a b c : Vec F S1x1024x64 .bf16) : Gen.k1_pay28 (F := F) (Gen.k1_pay26 a) (Gen.k1_pay27 b) c = Gen.k1_pay1 a b c := rfl
theorem pay31_eq (a b c : Vec F S1x1024x64 .bf16) : Gen.k1_pay31 (F := F) (Gen.k1_pay29 c) (Gen.k1_pay30 a b) = Gen.k1_pay1 a b c := rfl
theorem pay32_eq (a b c : Vec F S1x1024x64 .bf16) : Gen.k1_pay32 (F := F) a b c = Gen.k1_pay1 a b c := rfl
end AnyFloat

/-- The scale 1/8 and the starting value −∞ of the row maximum, as the body spells them. -/
abbrev scale : EReal := Ideal.ofBits .f32 0x3E000000#32
abbrev floor : EReal := Ideal.ofBits .f32 0xFF800000#32

/-- What the body leaves in the output block, as a function of the three input blocks: entry `(·, n, c)` is head
    `c / 64` of the blocks' channels at `(n, c % 64)`. -/
def block (x0 x1 x2 : S1x1024x1024.Idx → EReal) : S1x1024x1024.Idx → EReal := fun y =>
  head (fun n e => x0 (ix3 (0 : Fin 1) n (chan (headOf (y 2)) e))) (fun n e => x1 (ix3 (0 : Fin 1) n (chan (headOf (y 2)) e)))
    (fun n e => x2 (ix3 (0 : Fin 1) n (chan (headOf (y 2)) e))) scale floor (y 1) (placeOf (y 2))

/-- One store's payload is the block's function on the store's rectangle: channels `h·64 … h·64 + 63`. -/
theorem piece_eq (h : Fin 16) (off : Nat) (hoff : off = h.val * 64)
    (inb : ∀ a, (![0, 0, off] : Fin 3 → Nat) a + (![1, 1024, 64] : Fin 3 → Nat) a ≤ S1x1024x1024.size a)
    (x0 x1 x2 : FVec Ideal S1x1024x1024 .bf16) (x : S1x1024x64.Idx) :
    Gen.k1_pay1 (F := Ideal) (View.ld x0 (Rect.unit (s := S1x1024x1024) ![0, 0, off] ![1, 1024, 64] inb))
        (View.ld x1 (Rect.unit (s := S1x1024x1024) ![0, 0, off] ![1, 1024, 64] inb))
        (View.ld x2 (Rect.unit (s := S1x1024x1024) ![0, 0, off] ![1, 1024, 64] inb)) x
      = block x0 x1 x2 ((Rect.unit (s := S1x1024x1024) ![0, 0, off] ![1, 1024, 64] inb).emb x) := by
  subst hoff
  obtain ⟨u, n, e, rfl⟩ : ∃ (u : Fin 1) (n : Fin 1024) (e : Fin 64), x = ix3 u n e := ⟨x 0, x 1, x 2, eq_ix3 x⟩
  have hemb : ∀ (u' : Fin 1) (n' : Fin 1024) (e' : Fin 64),
      (Rect.unit (s := S1x1024x1024) ![0, 0, h.val * 64] ![1, 1024, 64] inb).emb (ix3 u' n' e') = ix3 (0 : Fin 1) n' (chan h e') := by
    intro u' n' e'
    funext a
    apply Fin.ext
    match a with
    | ⟨0, _⟩ => show 0 + 1 * u'.val = 0; omega
    | ⟨1, _⟩ => show 0 + 1 * n'.val = n'.val; omega
    | ⟨2, _⟩ => show h.val * 64 + 1 * e'.val = h.val * 64 + e'.val; omega
  rw [HeadValue.pay_apply, hemb]
  show head (fun n' e' => x0 ((Rect.unit (s := S1x1024x1024) ![0, 0, h.val * 64] ![1, 1024, 64] inb).emb (ix3 (0 : Fin 1) n' e')))
      (fun n' e' => x1 ((Rect.unit (s := S1x1024x1024) ![0, 0, h.val * 64] ![1, 1024, 64] inb).emb (ix3 (0 : Fin 1) n' e')))
      (fun n' e' => x2 ((Rect.unit (s := S1x1024x1024) ![0, 0, h.val * 64] ![1, 1024, 64] inb).emb (ix3 (0 : Fin 1) n' e')))
      scale floor n e
    = head (fun n' e' => x0 (ix3 (0 : Fin 1) n' (chan (headOf (chan h e)) e'))) (fun n' e' => x1 (ix3 (0 : Fin 1) n' (chan (headOf (chan h e)) e')))
      (fun n' e' => x2 (ix3 (0 : Fin 1) n' (chan (headOf (chan h e)) e'))) scale floor n (placeOf (chan h e))
  rw [headOf_chan, placeOf_chan]
  simp only [hemb]

variable [Cert.KernelIdeal.Facts]

/-- The output block the run finds, on any staging memrefs: its 16 stores read back are `block` of the input blocks. -/
theorem out_eq (c : Dev nD) (i : grid1.Coords) (a1 : Memref sig .tc .vmem S1x1024x1024 .bf16) (h1 : a1.IsWhole)
    (a2 : Memref sig .tc .vmem S1x1024x1024 .bf16) (h2 : a2.IsWhole) (a3 : Memref sig .tc .vmem S1x1024x1024 .bf16) (h3 : a3.IsWhole)
    (a4 : Memref sig .tc .vmem S1x1024x1024 .f32) (h4 : a4.IsWhole) (x0 x1 x2 : Vec Ideal S1x1024x1024 .bf16) :
    Gen.out1_A_3 c i a1 h1 a2 h2 a3 h3 a4 h4 x0 x1 x2 = block x0 x1 x2 := by
  unfold Gen.out1_A_3
  rw [View.read_writes_eq_canon _ _ _ (Gen.cover1_A_3 c i a1 h1 a2 h2 a3 h3 a4 h4 x0 x1 x2)]
  funext y
  refine View.canon_apply_of_pieces (block x0 x1 x2) _ ?_ y (Gen.cover1_A_3 c i a1 h1 a2 h2 a3 h3 a4 h4 x0 x1 x2 y)
  unfold Gen.kernelRun1_A
  dsimp only
  sl_unfold_words
  simp only [pay4_eq, pay7_eq, pay8_eq, pay9_eq, pay12_eq, pay15_eq, pay16_eq, pay17_eq, pay20_eq, pay23_eq, pay24_eq, pay25_eq,
    pay28_eq, pay31_eq, pay32_eq, View.readAt_eq_ld, h1.read_unread, h2.read_unread, h3.read_unread]
  intro p hp
  simp only [List.mem_cons, List.mem_nil_iff, or_false] at hp
  rcases hp with rfl | rfl | rfl | rfl | rfl | rfl | rfl | rfl | rfl | rfl | rfl | rfl | rfl | rfl | rfl | rfl
  · exact piece_eq ⟨15, by decide⟩ 960 rfl _ x0 x1 x2
  · exact piece_eq ⟨14, by decide⟩ 896 rfl _ x0 x1 x2
  · exact piece_eq ⟨13, by decide⟩ 832 rfl _ x0 x1 x2
  · exact piece_eq ⟨12, by decide⟩ 768 rfl _ x0 x1 x2
  · exact piece_eq ⟨11, by decide⟩ 704 rfl _ x0 x1 x2
  · exact piece_eq ⟨10, by decide⟩ 640 rfl _ x0 x1 x2
  · exact piece_eq ⟨9, by decide⟩ 576 rfl _ x0 x1 x2
  · exact piece_eq ⟨8, by decide⟩ 512 rfl _ x0 x1 x2
  · exact piece_eq ⟨7, by decide⟩ 448 rfl _ x0 x1 x2
  · exact piece_eq ⟨6, by decide⟩ 384 rfl _ x0 x1 x2
  · exact piece_eq ⟨5, by decide⟩ 320 rfl _ x0 x1 x2
  · exact piece_eq ⟨4, by decide⟩ 256 rfl _ x0 x1 x2
  · exact piece_eq ⟨3, by decide⟩ 192 rfl _ x0 x1 x2
  · exact piece_eq ⟨2, by decide⟩ 128 rfl _ x0 x1 x2
  · exact piece_eq ⟨1, by decide⟩ 64 rfl _ x0 x1 x2
  · exact piece_eq ⟨0, by decide⟩ 0 rfl _ x0 x1 x2

end Cert.KernelIdeal.Region1

end
-- ==== Proof.Region1Array.lean ====
/-
  The attention kernel's output array after all 8 grid points: `Cert.Attn.attend` of the three input arrays.

  Point `t` reads batch element `t` of the query, key and value arrays and writes batch element `t` of the output; what it
  writes is `Region1.block` of the three blocks, which is batch element `t` of `attend` of the arrays. The 8 blocks tile
  the output array.
-/
import proofs.«111769_j14559939133659_2_alg».proof.Proof.Region1

set_option maxRecDepth 16384

noncomputable section

namespace Cert.KernelIdeal.Region1

open Cert.KernelIdeal Idealize.ShloMosaic Idealize.ShloMosaic.TcCoe Idealize.ShloMosaic.ValueIdx Idealize.SL.Sem
open Idealize.ShloMosaic.Pipeline (Dat)
open Cert.Attn

variable (V : (c : Dev nD) → (b : Ref sig .tc) → Buf (Elt Ideal) ((c : Thread nD τ).loc b))

/-- Every window of the attention call is at block `(t, 0, 0)` at point `t`. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The array the output window ends holding. -/
abbrev result (c : Dev nD) : Buf (Elt Ideal) ((c : Thread nD τ).loc main_v13) :=
  attend scale floor (V c main_v10) (V c main_v11) (V c main_v12)

/-- What point `t` writes back is block `t` of `result`. -/
theorem flushed_eq (c : Dev nD) (t : Fin cfg1.N) :
    (Gen.dat1 V c).flushed 3 t = ((cfg1.win 3).blk t).view.read (Elt Ideal) (result V c) := by
  show (cfg1.win 3).cut (grid1.coords t) ((Gen.dat1 V c).after 3 t) = _
  rw [Gen.after1_3]
  unfold Gen.outsAt1
  rw [out_eq]
  obtain ⟨e00, e01, e02, e10, e11, e12, e20, e21, e22, e30, e31, e32⟩ := idx_facts t
  have ht : t.val < 8 := by have := t.isLt; have hN : cfg1.N = 8 := Gen.N_1; omega
  refine funext fun (y : S1x1024x1024.Idx) => ?_
  obtain ⟨u, n, cc, rfl⟩ : ∃ (u : Fin 1) (n cc : Fin 1024), y = ix3 u n cc := ⟨y 0, y 1, y 2, eq_ix3 y⟩
  have h3 : ((cfg1.win 3).blk t).view.emb (ix3 u n cc) = ix3 (⟨t.val, ht⟩ : Fin 8) n cc := by
    funext a; apply Fin.ext
    match a with
    | ⟨0, _⟩ => show win1_3.index t (0 : Fin 3) * 1 + 1 * u.val = t.val; omega
    | ⟨1, _⟩ => show win1_3.index t (1 : Fin 3) * 1024 + 1 * n.val = n.val; omega
    | ⟨2, _⟩ => show win1_3.index t (2 : Fin 3) * 1024 + 1 * cc.val = cc.val; omega
  have hb0 : ∀ (n' cc' : Fin 1024), Gen.iblk1 V c 0 t (ix3 (0 : Fin 1) n' cc') = V c main_v10 (ix3 (⟨t.val, ht⟩ : Fin 8) n' cc') := by
    intro n' cc'
    show V c main_v10 (((cfg1.win 0).blk t).view.emb (ix3 (0 : Fin 1) n' cc')) = _
    congr 1
    funext a; apply Fin.ext
    match a with
    | ⟨0, _⟩ => show win1_0.index t (0 : Fin 3) * 1 + 1 * 0 = t.val; omega
    | ⟨1, _⟩ => show win1_0.index t (1 : Fin 3) * 1024 + 1 * n'.val = n'.val; omega
    | ⟨2, _⟩ => show win1_0.index t (2 : Fin 3) * 1024 + 1 * cc'.val = cc'.val; omega
  have hb1 : ∀ (n' cc' : Fin 1024), Gen.iblk1 V c 1 t (ix3 (0 : Fin 1) n' cc') = V c main_v11 (ix3 (⟨t.val, ht⟩ : Fin 8) n' cc') := by
    intro n' cc'
    show V c main_v11 (((cfg1.win 1).blk t).view.emb (ix3 (0 : Fin 1) n' cc')) = _
    congr 1
    funext a; apply Fin.ext
    match a with
    | ⟨0, _⟩ => show win1_1.index t (0 : Fin 3) * 1 + 1 * 0 = t.val; omega
    | ⟨1, _⟩ => show win1_1.index t (1 : Fin 3) * 1024 + 1 * n'.val = n'.val; omega
    | ⟨2, _⟩ => show win1_1.index t (2 : Fin 3) * 1024 + 1 * cc'.val = cc'.val; omega
  have hb2 : ∀ (n' cc' : Fin 1024), Gen.iblk1 V c 2 t (ix3 (0 : Fin 1) n' cc') = V c main_v12 (ix3 (⟨t.val, ht⟩ : Fin 8) n' cc') := by
    intro n' cc'
    show V c main_v12 (((cfg1.win 2).blk t).view.emb (ix3 (0 : Fin 1) n' cc')) = _
    congr 1
    funext a; apply Fin.ext
    match a with
    | ⟨0, _⟩ => show win1_2.index t (0 : Fin 3) * 1 + 1 * 0 = t.val; omega
    | ⟨1, _⟩ => show win1_2.index t (1 : Fin 3) * 1024 + 1 * n'.val = n'.val; omega
    | ⟨2, _⟩ => show win1_2.index t (2 : Fin 3) * 1024 + 1 * cc'.val = cc'.val; omega
  show block (Gen.iblk1 V c 0 t) (Gen.iblk1 V c 1 t) (Gen.iblk1 V c 2 t) (ix3 u n cc)
    = attend scale floor (V c main_v10) (V c main_v11) (V c main_v12) (((cfg1.win 3).blk t).view.emb (ix3 u n cc))
  rw [h3]
  unfold block attend
  simp only [hb0, hb1, hb2]

/-- An index of the array is in point `t`'s block iff each coordinate is in the block's range on its axis. -/
theorem mem_blk (t : Fin cfg1.N) (i : S8x1024x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v13).slice (win1_3.rect t)).set ↔ _
  rw [View.set_slice_whole, Rect.mem_set_unit]
  exact Iff.rfl

/-- Every index of the array is in the block of the point of its batch element. -/
theorem cover (i : S8x1024x1024.Idx) : ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  have hN : cfg1.N = 8 := Gen.N_1
  refine ⟨⟨(i 0).val, by omega⟩, Gen.flush1_3 _, ?_⟩
  obtain ⟨-, -, -, -, -, -, -, -, -, e30, e31, e32⟩ := idx_facts ⟨(i 0).val, by omega⟩
  rw [mem_blk]
  intro a
  match a with
  | ⟨0, _⟩ => show win1_3.index _ (0 : Fin 3) * 1 ≤ (i 0).val ∧ (i 0).val < win1_3.index _ (0 : Fin 3) * 1 + 1; rw [e30]; dsimp only; omega
  | ⟨1, _⟩ => show win1_3.index _ (1 : Fin 3) * 1024 ≤ (i 1).val ∧ (i 1).val < win1_3.index _ (1 : Fin 3) * 1024 + 1024; rw [e31]; omega
  | ⟨2, _⟩ => show win1_3.index _ (2 : Fin 3) * 1024 ≤ (i 2).val ∧ (i 2).val < win1_3.index _ (2 : Fin 3) * 1024 + 1024; rw [e32]; omega

/-- The output array after the region. -/
theorem final (c : Dev nD) : (Gen.dat1 V c).arrAt 3 cfg1.N = result V c :=
  (Gen.dat1 V c).arrAt_eq_of_cover 3 (result V c) (fun t _ => flushed_eq V c t) fun i => cover i

end Cert.KernelIdeal.Region1

end
-- ==== Proof.Region2.lean ====
/-
  The output-projection kernel's output array, as a function of its input arrays.

  At grid point `t` the body takes rows `t·1024 … t·1024 + 1023` of the [8192, 1024] arrays `A` (the attention output) and
  `X` (the residual), the whole [1024, 1024] weight `W` and the [1, 1024] bias `B`, and stores `A · Wᵀ + B + X` into the same
  rows of the output, which therefore ends holding, at `(r, e)`, `∑ c, A (r, c) · W (e, c) + B (0, e) + X (r, e)`.
-/
import proofs.«111769_j14559939133659_2_alg».proof.Proof.Gen.KernelIdeal.Frame
import proofs.«111769_j14559939133659_2_alg».proof.Proof.LibTransposedProduct
import proofs.«111769_j14559939133659_2_alg».proof.Proof.LibRepeat
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The array the output ends holding. -/
def projected (A : S8192x1024.Idx → EReal) (W : S1024x1024.Idx → EReal) (B : S1x1024.Idx → EReal) (X : S8192x1024.Idx → EReal) :
    S8192x1024.Idx → EReal := fun i =>
  (∑ c : Fin 1024, A (ix2 (i 0) c) * W (ix2 (i 1) c)) + B (ix2 (0 : Fin 1) (i 1)) + X i

/-- The body's result at `(r, e)`. -/
theorem pay_apply (A : FVec Ideal S1024x1024 .f32) (W : FVec Ideal S1024x1024 .bf16) (B : FVec Ideal S1x1024 .f32)
    (X : FVec Ideal S1024x1024 .f32) (r e : Fin 1024) :
    Gen.k2_pay1 (F := Ideal) A W B X (ix2 r e)
      = (∑ c : Fin 1024, A (ix2 r c) * W (ix2 e c)) + B (ix2 (0 : Fin 1) e) + X (ix2 r e) := by
  unfold Gen.k2_pay1
  refine congrArg₂ (· + ·) (congrArg₂ (· + ·) ?_ ?_) ?_
  · refine (Cert.Lib.TransposedProduct.matmul_apply _ rfl none _ _ r e).trans ?_
    simp only [shapeCast_self, truncf_apply]
  · refine (Cert.Lib.Repeat.rowRepeat_apply _ _ r e).trans ?_
    simp only [shapeCast_self]
  · simp only [shapeCast_self]

variable (V : (c : Dev nD) → (b : Ref sig .tc) → Buf (Elt Ideal) ((c : Thread nD τ).loc b))

/-- The two row-blocked inputs and the output are at block `(t, 0)` at point `t`; the weight and the bias are whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem hb0 (c : Dev nD) (t : Fin cfg2.N) (ht : t.val < 8) (r d : Fin 1024) :
    Gen.iblk2 V c 0 t (ix2 r d) = V c main_v14 (ix2 (⟨t.val * 1024 + r.val, by have := r.isLt; omega⟩ : Fin 8192) d) := by
  obtain ⟨e00, e01, -⟩ := idx_facts t
  show V c main_v14 (((cfg2.win 0).blk t).view.emb (ix2 r d)) = _
  congr 1
  funext a; apply Fin.ext
  match a with
  | ⟨0, _⟩ => show win2_0.index t (0 : Fin 2) * 1024 + 1 * r.val = t.val * 1024 + r.val; omega
  | ⟨1, _⟩ => show win2_0.index t (1 : Fin 2) * 1024 + 1 * d.val = d.val; omega

theorem hb1 (c : Dev nD) (t : Fin cfg2.N) (e d : Fin 1024) :
    Gen.iblk2 V c 1 t (ix2 e d) = V c main_v15 (ix2 e d) := by
  obtain ⟨-, -, e10, e11, -⟩ := idx_facts t
  show V c main_v15 (((cfg2.win 1).blk t).view.emb (ix2 e d)) = _
  congr 1
  funext a; apply Fin.ext
  match a with
  | ⟨0, _⟩ => show win2_1.index t (0 : Fin 2) * 1024 + 1 * e.val = e.val; omega
  | ⟨1, _⟩ => show win2_1.index t (1 : Fin 2) * 1024 + 1 * d.val = d.val; omega

theorem hb2 (c : Dev nD) (t : Fin cfg2.N) (e : Fin 1024) :
    Gen.iblk2 V c 2 t (ix2 (0 : Fin 1) e) = V c main_v16 (ix2 (0 : Fin 1) e) := by
  obtain ⟨-, -, -, -, e20, e21, -⟩ := idx_facts t
  show V c main_v16 (((cfg2.win 2).blk t).view.emb (ix2 (0 : Fin 1) e)) = _
  congr 1
  funext a; apply Fin.ext
  match a with
  | ⟨0, _⟩ => show win2_2.index t (0 : Fin 2) * 1 + 1 * 0 = 0; omega
  | ⟨1, _⟩ => show win2_2.index t (1 : Fin 2) * 1024 + 1 * e.val = e.val; omega

theorem hb3 (c : Dev nD) (t : Fin cfg2.N) (ht : t.val < 8) (r d : Fin 1024) :
    Gen.iblk2 V c 3 t (ix2 r d) = V c main_v0 (ix2 (⟨t.val * 1024 + r.val, by have := r.isLt; omega⟩ : Fin 8192) d) := by
  obtain ⟨-, -, -, -, -, -, e30, e31, -⟩ := idx_facts t
  show V c main_v0 (((cfg2.win 3).blk t).view.emb (ix2 r d)) = _
  congr 1
  funext a; apply Fin.ext
  match a with
  | ⟨0, _⟩ => show win2_3.index t (0 : Fin 2) * 1024 + 1 * r.val = t.val * 1024 + r.val; omega
  | ⟨1, _⟩ => show win2_3.index t (1 : Fin 2) * 1024 + 1 * d.val = d.val; omega

/-- What point `t` writes back is block `t` of `projected`. -/
theorem flushed_eq (c : Dev nD) (t : Fin cfg2.N) :
    (Gen.dat2 V c).flushed 4 t = ((cfg2.win 4).blk t).view.read (Elt Ideal)
      (projected (V c main_v14) (V c main_v15) (V c main_v16) (V c main_v0)) := by
  show (cfg2.win 4).cut (grid2.coords t) ((Gen.dat2 V c).after 4 t) = _
  rw [Gen.after2_4]
  unfold Gen.out2_4
  rw [View.canon_unit_zero hz]
  simp only [View.ld_unit_zero (S := S1024x1024) hz, View.ld_unit_zero (S := S1x1024) hz]
  obtain ⟨e00, e01, e10, e11, e20, e21, e30, e31, e40, e41⟩ := idx_facts t
  have ht : t.val < 8 := by have := t.isLt; have hN : cfg2.N = 8 := Gen.N_2; omega
  refine funext fun (j : S1024x1024.Idx) => ?_
  obtain ⟨r, cc, rfl⟩ : ∃ (r cc : Fin 1024), j = ix2 r cc := ⟨j 0, j 1, eq_ix2 j⟩
  have hrow : t.val * 1024 + r.val < 8192 := by have := r.isLt; omega
  have h4 : ((cfg2.win 4).blk t).view.emb (ix2 r cc) = ix2 (⟨t.val * 1024 + r.val, hrow⟩ : Fin 8192) cc := by
    funext a; apply Fin.ext
    match a with
    | ⟨0, _⟩ => show win2_4.index t (0 : Fin 2) * 1024 + 1 * r.val = t.val * 1024 + r.val; omega
    | ⟨1, _⟩ => show win2_4.index t (1 : Fin 2) * 1024 + 1 * cc.val = cc.val; omega
  show Gen.k2_pay1 (F := Ideal) (Gen.iblk2 V c 0 t) (Gen.iblk2 V c 1 t) (Gen.iblk2 V c 2 t) (Gen.iblk2 V c 3 t) (ix2 r cc)
    = projected (V c main_v14) (V c main_v15) (V c main_v16) (V c main_v0) (((cfg2.win 4).blk t).view.emb (ix2 r cc))
  rw [h4, pay_apply]
  unfold projected
  exact congrArg₂ (· + ·) (congrArg₂ (· + ·)
    (Finset.sum_congr rfl fun d _ => congrArg₂ (· * ·) (hb0 V c t ht r d) (hb1 V c t cc d)) (hb2 V c t cc)) (hb3 V c t ht r cc)

theorem mem_blk (t : Fin cfg2.N) (i : S8192x1024.Idx) :
    i ∈ ((cfg2.win 4).blk t).view.set ↔ ∀ a : Fin 2, win2_4.index t a * S1024x1024.size a ≤ (i a).val
      ∧ (i a).val < win2_4.index t a * S1024x1024.size a + S1024x1024.size a := by
  show i ∈ ((View.whole main_v17).slice (win2_4.rect t)).set ↔ _
  rw [View.set_slice_whole, Rect.mem_set_unit]
  exact Iff.rfl

theorem cover (i : S8192x1024.Idx) : ∃ t : Fin cfg2.N, (cfg2.win 4).flush t = true ∧ i ∈ ((cfg2.win 4).blk t).view.set := by
  have hi0 : (i 0).val < 8192 := (i 0).isLt
  have hi1 : (i 1).val < 1024 := (i 1).isLt
  have hN : cfg2.N = 8 := Gen.N_2
  refine ⟨⟨(i 0).val / 1024, by omega⟩, Gen.flush2_4 _, ?_⟩
  obtain ⟨e00, e01, e10, e11, e20, e21, e30, e31, e40, e41⟩ := idx_facts ⟨(i 0).val / 1024, by omega⟩
  rw [mem_blk]
  intro a
  match a with
  | ⟨0, _⟩ => show win2_4.index _ (0 : Fin 2) * 1024 ≤ (i 0).val ∧ (i 0).val < win2_4.index _ (0 : Fin 2) * 1024 + 1024; rw [e40]; dsimp only; omega
  | ⟨1, _⟩ => show win2_4.index _ (1 : Fin 2) * 1024 ≤ (i 1).val ∧ (i 1).val < win2_4.index _ (1 : Fin 2) * 1024 + 1024; rw [e41]; omega

/-- The output array after the region. -/
theorem final (c : Dev nD) : (Gen.dat2 V c).arrAt 4 cfg2.N = projected (V c main_v14) (V c main_v15) (V c main_v16) (V c main_v0) :=
  (Gen.dat2 V c).arrAt_eq_of_cover 4 _ (fun t _ => flushed_eq V c t) fun i => cover i

end Cert.KernelIdeal.Region2

end
-- ==== Proof.Stretches.lean ====
/-
  The host operations around the three kernels, read at an index from any buffer contents.

  Before the first kernel the input is flattened to [8192, 1024] (row `b·1024 + n`), and the projection weight and bias
  are re-ordered so that the three groups (queries, keys, values) come first and the heads second: row
  `third·1024 + h·64 + d` of the new weight is row `h·192 + third·64 + d` of the old. Between the kernels the arrays are
  only re-shaped between [8192, 1024] and [8, 1024, 1024]; the output weight changes float format (the identity on the
  extended reals) and the output bias gets a unit axis.
-/
import proofs.«111769_j14559939133659_2_alg».proof.Proof.Gen.KernelIdeal.Launch
import proofs.«111769_j14559939133659_2_alg».proof.Proof.Spec
import proofs.«111769_j14559939133659_2_alg».proof.Proof.LibMergeRows
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Stretches

open Cert.KernelIdeal Idealize.ShloMosaic Idealize.ShloMosaic.TcCoe Idealize.ShloMosaic.ValueIdx Idealize.SL.Sem
open Idealize.ShloMosaic.StableHlo
open Cert.Attn

variable (W : Valuation τ sig (Elt Ideal))

/-! ## Before the projection kernel -/

theorem ops0_v0 (b : Fin 8) (n d : Fin 1024) (r : Fin 8192) (hr : r.val = b.val * 1024 + n.val) :
    StableHlo.after (Gen.hostOps0 (F := Ideal)) W (Proc.devRef .tc main_v0) (ix2 r d) = W (Proc.devRef .tc main_arg0) (ix3 b n d) := by
  have e : StableHlo.after (Gen.hostOps0 (F := Ideal)) W (Proc.devRef .tc main_v0)
      = shapeCast S8192x1024 (W (Proc.devRef .tc main_arg0)) Facts₀.shapeCasts_S8x1024x1024_S8192x1024 := by
    after_results; rfl
  rw [e]
  exact Cert.Lib.MergeRows.merge_apply _ _ b n d r hr

theorem ops0_v4 (third : Fin 3) (c d : Fin 1024) :
    StableHlo.after (Gen.hostOps0 (F := Ideal)) W (Proc.devRef .tc main_v4) (ix2 (band third c) d)
      = W (Proc.devRef .tc main_arg1) (ix2 (wrow third c) d) := by
  have e : (StableHlo.after (Gen.hostOps0 (F := Ideal)) W (Proc.devRef .tc main_v4) : S3072x1024.Idx → EReal)
      = (shapeCast S3072x1024 (transpose S3x16x64x1024 [1, 0, 2, 3]
          (shapeCast S16x3x64x1024 (W (Proc.devRef .tc main_arg1) : FVec Ideal S3072x1024 .f32) Facts₀.shapeCasts_S3072x1024_S16x3x64x1024)
          Facts₀.transposes_S16x3x64x1024_S3x16x64x1024_1_0_2_3) Facts₀.shapeCasts_S3x16x64x1024_S3072x1024) := by
    after_results; rfl
  refine (congrFun e (ix2 (band third c) d)).trans ?_
  have hc := c.isLt
  have h3 := third.isLt
  refine (shapeCast_apply _ _ (ix2 (band third c) d) (ix4 third (headOf c) (placeOf c) d) (by
    rw [Shape.rowMajor_val_four, Shape.rowMajor_val_two]
    show ((third.val * 16 + c.val / 64) * 64 + c.val % 64) * 1024 + d.val = (third.val * 1024 + c.val) * 1024 + d.val
    omega)).trans ?_
  refine (transpose_apply _ _ _ (ix4 third (headOf c) (placeOf c) d) (ix4 (headOf c) third (placeOf c) d)
    (fun b => match b with | ⟨0, _⟩ => rfl | ⟨1, _⟩ => rfl | ⟨2, _⟩ => rfl | ⟨3, _⟩ => rfl)).trans ?_
  exact shapeCast_apply _ _ (ix4 (headOf c) third (placeOf c) d) (ix2 (wrow third c) d) (by
    rw [Shape.rowMajor_val_four, Shape.rowMajor_val_two]
    show (c.val / 64 * 192 + third.val * 64 + c.val % 64) * 1024 + d.val = ((c.val / 64 * 3 + third.val) * 64 + c.val % 64) * 1024 + d.val
    omega)

theorem ops0_v8 (third : Fin 3) (c : Fin 1024) :
    StableHlo.after (Gen.hostOps0 (F := Ideal)) W (Proc.devRef .tc main_v8) (ix2 (0 : Fin 1) (band third c))
      = W (Proc.devRef .tc main_arg2) (ix1 (wrow third c)) := by
  have e : StableHlo.after (Gen.hostOps0 (F := Ideal)) W (Proc.devRef .tc main_v8)
      = shapeCast S1x3072 (shapeCast S3072 (transpose S3x16x64 [1, 0, 2]
          (shapeCast S16x3x64 (W (Proc.devRef .tc main_arg2)) Facts₀.shapeCasts_S3072_S16x3x64)
          Facts₀.transposes_S16x3x64_S3x16x64_1_0_2) Facts₀.shapeCasts_S3x16x64_S3072) Facts₀.shapeCasts_S3072_S1x3072 := by
    after_results; rfl
  rw [e]
  have hc := c.isLt
  have h3 := third.isLt
  refine (shapeCast_a_1a_apply _ _ (0 : Fin 1) (band third c)).trans ?_
  refine (shapeCast_apply _ _ (ix1 (band third c)) (ix3 third (headOf c) (placeOf c)) (by
    rw [Shape.rowMajor_val_three, Shape.rowMajor_val_one]
    show (third.val * 16 + c.val / 64) * 64 + c.val % 64 = third.val * 1024 + c.val
    omega)).trans ?_
  refine (transpose_apply _ _ _ (ix3 third (headOf c) (placeOf c)) (ix3 (headOf c) third (placeOf c))
    (fun b => match b with | ⟨0, _⟩ => rfl | ⟨1, _⟩ => rfl | ⟨2, _⟩ => rfl)).trans ?_
  exact shapeCast_apply _ _ (ix3 (headOf c) third (placeOf c)) (ix1 (wrow third c)) (by
    rw [Shape.rowMajor_val_three, Shape.rowMajor_val_one]
    show c.val / 64 * 192 + third.val * 64 + c.val % 64 = (c.val / 64 * 3 + third.val) * 64 + c.val % 64
    omega)

/-! ## Between the projection and the attention kernels -/

theorem ops1_v10 (b : Fin 8) (n c : Fin 1024) (r : Fin 8192) (hr : r.val = b.val * 1024 + n.val) :
    StableHlo.after (Gen.hostOps1 (F := Ideal)) W (Proc.devRef .tc main_v10) (ix3 b n c) = W (Proc.devRef .tc main_v9_0) (ix2 r c) := by
  have e : StableHlo.after (Gen.hostOps1 (F := Ideal)) W (Proc.devRef .tc main_v10)
      = shapeCast S8x1024x1024 (W (Proc.devRef .tc main_v9_0)) Facts₀.shapeCasts_S8192x1024_S8x1024x1024 := by
    after_results; rfl
  rw [e]
  exact Cert.Lib.MergeRows.split_apply _ _ b n c r hr

theorem ops1_v11 (b : Fin 8) (n c : Fin 1024) (r : Fin 8192) (hr : r.val = b.val * 1024 + n.val) :
    StableHlo.after (Gen.hostOps1 (F := Ideal)) W (Proc.devRef .tc main_v11) (ix3 b n c) = W (Proc.devRef .tc main_v9_1) (ix2 r c) := by
  have e : StableHlo.after (Gen.hostOps1 (F := Ideal)) W (Proc.devRef .tc main_v11)
      = shapeCast S8x1024x1024 (W (Proc.devRef .tc main_v9_1)) Facts₀.shapeCasts_S8192x1024_S8x1024x1024 := by
    after_results; rfl
  rw [e]
  exact Cert.Lib.MergeRows.split_apply _ _ b n c r hr

theorem ops1_v12 (b : Fin 8) (n c : Fin 1024) (r : Fin 8192) (hr : r.val = b.val * 1024 + n.val) :
    StableHlo.after (Gen.hostOps1 (F := Ideal)) W (Proc.devRef .tc main_v12) (ix3 b n c) = W (Proc.devRef .tc main_v9_2) (ix2 r c) := by
  have e : StableHlo.after (Gen.hostOps1 (F := Ideal)) W (Proc.devRef .tc main_v12)
      = shapeCast S8x1024x1024 (W (Proc.devRef .tc main_v9_2)) Facts₀.shapeCasts_S8192x1024_S8x1024x1024 := by
    after_results; rfl
  rw [e]
  exact Cert.Lib.MergeRows.split_apply _ _ b n c r hr

/-! ## Between the attention and the output-projection kernels -/

theorem ops2_v14 (b : Fin 8) (n c : Fin 1024) (r : Fin 8192) (hr : r.val = b.val * 1024 + n.val) :
    StableHlo.after (Gen.hostOps2 (F := Ideal)) W (Proc.devRef .tc main_v14) (ix2 r c) = W (Proc.devRef .tc main_v13) (ix3 b n c) := by
  have e : StableHlo.after (Gen.hostOps2 (F := Ideal)) W (Proc.devRef .tc main_v14)
      = shapeCast S8192x1024 (W (Proc.devRef .tc main_v13)) Facts₀.shapeCasts_S8x1024x1024_S8192x1024 := by
    after_results; rfl
  rw [e]
  exact Cert.Lib.MergeRows.merge_apply _ _ b n c r hr

theorem ops2_v15 (e' c : Fin 1024) :
    StableHlo.after (Gen.hostOps2 (F := Ideal)) W (Proc.devRef .tc main_v15) (ix2 e' c) = W (Proc.devRef .tc main_arg3) (ix2 e' c) := by
  have e : (StableHlo.after (Gen.hostOps2 (F := Ideal)) W (Proc.devRef .tc main_v15) : S1024x1024.Idx → EReal)
      = (W (Proc.devRef .tc main_arg3) : S1024x1024.Idx → EReal) := by
    after_results; rfl
  exact congrFun e (ix2 e' c)

theorem ops2_v16 (e' : Fin 1024) :
    StableHlo.after (Gen.hostOps2 (F := Ideal)) W (Proc.devRef .tc main_v16) (ix2 (0 : Fin 1) e') = W (Proc.devRef .tc main_arg4) (ix1 e') := by
  have e : StableHlo.after (Gen.hostOps2 (F := Ideal)) W (Proc.devRef .tc main_v16)
      = shapeCast S1x1024 (W (Proc.devRef .tc main_arg4)) Facts₀.shapeCasts_S1024_S1x1024 := by
    after_results; rfl
  rw [e]
  exact shapeCast_a_1a_apply _ _ (0 : Fin 1) e'

/-! ## Buffers a stretch does not write keep their contents -/

theorem ops0_keep_arg3 : StableHlo.after (Gen.hostOps0 (F := Ideal)) W (Proc.devRef .tc main_arg3) = W (Proc.devRef .tc main_arg3) := by
  after_results
theorem ops0_keep_arg4 : StableHlo.after (Gen.hostOps0 (F := Ideal)) W (Proc.devRef .tc main_arg4) = W (Proc.devRef .tc main_arg4) := by
  after_results
theorem ops1_keep_arg3 : StableHlo.after (Gen.hostOps1 (F := Ideal)) W (Proc.devRef .tc main_arg3) = W (Proc.devRef .tc main_arg3) := by
  after_results
theorem ops1_keep_arg4 : StableHlo.after (Gen.hostOps1 (F := Ideal)) W (Proc.devRef .tc main_arg4) = W (Proc.devRef .tc main_arg4) := by
  after_results
theorem ops1_keep_v0 : StableHlo.after (Gen.hostOps1 (F := Ideal)) W (Proc.devRef .tc main_v0) = W (Proc.devRef .tc main_v0) := by
  after_results
theorem ops2_keep_v0 : StableHlo.after (Gen.hostOps2 (F := Ideal)) W (Proc.devRef .tc main_v0) = W (Proc.devRef .tc main_v0) := by
  after_results

/-! ## After the output-projection kernel -/

theorem ops3_v18 (b : Fin 8) (n c : Fin 1024) (r : Fin 8192) (hr : r.val = b.val * 1024 + n.val) :
    StableHlo.after (Gen.hostOps3 (F := Ideal)) W (Proc.devRef .tc main_v18) (ix3 b n c) = W (Proc.devRef .tc main_v17) (ix2 r c) := by
  have e : StableHlo.after (Gen.hostOps3 (F := Ideal)) W (Proc.devRef .tc main_v18)
      = shapeCast S8x1024x1024 (W (Proc.devRef .tc main_v17)) Facts₀.shapeCasts_S8192x1024_S8x1024x1024 := by
    after_results; rfl
  rw [e]
  exact Cert.Lib.MergeRows.split_apply _ _ b n c r hr

end Cert.KernelIdeal.Stretches

end
-- ==== Proof.KernelValue.lean ====
/-
  The kernel program's result buffer, as one function of the argument arrays: `Cert.Attn.layer`.

  The program's buffer contents are followed through its seven segments: the host operations that flatten the input
  and re-order the projection weight and bias; the projection kernel (Proof/Region0.lean), whose three outputs re-shaped
  to [8, 1024, 1024] are the projected queries, keys and values `Cert.Attn.project`; the attention kernel
  (Proof/Region1Array.lean), whose output is `Cert.Attn.attend` of them; the output-projection kernel
  (Proof/Region2.lean), whose output re-shaped to [8, 1024, 1024] is `Cert.Attn.finish`.
-/
import proofs.«111769_j14559939133659_2_alg».proof.Proof.Gen.KernelIdeal.Frame
import proofs.«111769_j14559939133659_2_alg».proof.Proof.Region0
import proofs.«111769_j14559939133659_2_alg».proof.Proof.Region1Array
import proofs.«111769_j14559939133659_2_alg».proof.Proof.Region2
import proofs.«111769_j14559939133659_2_alg».proof.Proof.Stretches
import proofs.«111769_j14559939133659_2_alg».proof.Proof.Spec

set_option maxRecDepth 16384

noncomputable section

namespace Cert.KernelIdeal.Value

open Cert.KernelIdeal Idealize.ShloMosaic Idealize.ShloMosaic.TcCoe Idealize.ShloMosaic.ValueIdx Idealize.SL.Sem
open Idealize.ShloMosaic.Pipeline (Dat)
open Cert.Attn

variable (m : (ℓ : Loc nD τ sig) → Buf (Elt Ideal) ℓ) (ρ : Dev nD → PrngReg)

/-- The scale 1/8 and the starting value −∞ of the row maximum, as the kernel spells them. -/
abbrev scale : EReal := Ideal.ofBits .f32 0x3E000000#32
abbrev floor : EReal := Ideal.ofBits .f32 0xFF800000#32

/-- Row `b·1024 + n` of a flattened [8192, 1024] array. -/
def row (b : Fin 8) (n : Fin 1024) : Fin 8192 := ⟨b.val * 1024 + n.val, by have := b.isLt; have := n.isLt; omega⟩
theorem row_val (b : Fin 8) (n : Fin 1024) : (row b n).val = b.val * 1024 + n.val := rfl

/-! ## The projection kernel's inputs and outputs -/

theorem v1_x (c : Dev nD) (b : Fin 8) (n d : Fin 1024) :
    Gen.V1 m ρ c main_v0 (ix2 (row b n) d) = m ((c : Thread nD τ).loc main_arg0) (ix3 b n d) :=
  Stretches.ops0_v0 (Gen.W0 m ρ c) b n d (row b n) rfl

theorem v1_w (c : Dev nD) (third : Fin 3) (cc d : Fin 1024) :
    Gen.V1 m ρ c main_v4 (ix2 (band third cc) d) = m ((c : Thread nD τ).loc main_arg1) (ix2 (wrow third cc) d) :=
  Stretches.ops0_v4 (Gen.W0 m ρ c) third cc d

theorem v1_b (c : Dev nD) (third : Fin 3) (cc : Fin 1024) :
    Gen.V1 m ρ c main_v8 (ix2 (0 : Fin 1) (band third cc)) = m ((c : Thread nD τ).loc main_arg2) (ix1 (wrow third cc)) :=
  Stretches.ops0_v8 (Gen.W0 m ρ c) third cc

/-- The projection kernel's output `third`, at row `b·1024 + n`, is the projection of position `(b, n)`. -/
theorem projected_apply (c : Dev nD) (third : Fin 3) (b : Fin 8) (n cc : Fin 1024) :
    Region0.projected third (Gen.V1 m ρ c main_v0) (Gen.V1 m ρ c main_v4) (Gen.V1 m ρ c main_v8) (ix2 (row b n) cc)
      = project (m ((c : Thread nD τ).loc main_arg0)) (m ((c : Thread nD τ).loc main_arg1)) (m ((c : Thread nD τ).loc main_arg2))
          third (ix3 b n cc) := by
  unfold Region0.projected project
  exact congrArg₂ (· + ·) (Finset.sum_congr rfl fun d _ => congrArg₂ (· * ·) (v1_x m ρ c b n d) (v1_w m ρ c third cc d))
    (v1_b m ρ c third cc)

theorem w2_q (c : Dev nD) : Gen.W2 m ρ c (Proc.devRef .tc main_v9_0)
    = Region0.projected (0 : Fin 3) (Gen.V1 m ρ c main_v0) (Gen.V1 m ρ c main_v4) (Gen.V1 m ρ c main_v8) :=
  (Gen.W2_arr m ρ c 3).trans (Region0.final3 (Gen.V1 m ρ) c)
theorem w2_k (c : Dev nD) : Gen.W2 m ρ c (Proc.devRef .tc main_v9_1)
    = Region0.projected (1 : Fin 3) (Gen.V1 m ρ c main_v0) (Gen.V1 m ρ c main_v4) (Gen.V1 m ρ c main_v8) :=
  (Gen.W2_arr m ρ c 4).trans (Region0.final4 (Gen.V1 m ρ) c)
theorem w2_v (c : Dev nD) : Gen.W2 m ρ c (Proc.devRef .tc main_v9_2)
    = Region0.projected (2 : Fin 3) (Gen.V1 m ρ c main_v0) (Gen.V1 m ρ c main_v4) (Gen.V1 m ρ c main_v8) :=
  (Gen.W2_arr m ρ c 5).trans (Region0.final5 (Gen.V1 m ρ) c)

/-! ## The attention kernel's inputs and output -/

theorem v3_q (c : Dev nD) : (Gen.V3 m ρ c main_v10 : Cube)
    = project (m ((c : Thread nD τ).loc main_arg0)) (m ((c : Thread nD τ).loc main_arg1)) (m ((c : Thread nD τ).loc main_arg2)) 0 := by
  funext i
  obtain ⟨b, n, cc, rfl⟩ : ∃ (b : Fin 8) (n cc : Fin 1024), i = ix3 b n cc := ⟨i 0, i 1, i 2, eq_ix3 i⟩
  refine (Stretches.ops1_v10 (Gen.W2 m ρ c) b n cc (row b n) rfl).trans ?_
  rw [w2_q]
  exact projected_apply m ρ c 0 b n cc

theorem v3_k (c : Dev nD) : (Gen.V3 m ρ c main_v11 : Cube)
    = project (m ((c : Thread nD τ).loc main_arg0)) (m ((c : Thread nD τ).loc main_arg1)) (m ((c : Thread nD τ).loc main_arg2)) 1 := by
  funext i
  obtain ⟨b, n, cc, rfl⟩ : ∃ (b : Fin 8) (n cc : Fin 1024), i = ix3 b n cc := ⟨i 0, i 1, i 2, eq_ix3 i⟩
  refine (Stretches.ops1_v11 (Gen.W2 m ρ c) b n cc (row b n) rfl).trans ?_
  rw [w2_k]
  exact projected_apply m ρ c 1 b n cc

theorem v3_v (c : Dev nD) : (Gen.V3 m ρ c main_v12 : Cube)
    = project (m ((c : Thread nD τ).loc main_arg0)) (m ((c : Thread nD τ).loc main_arg1)) (m ((c : Thread nD τ).loc main_arg2)) 2 := by
  funext i
  obtain ⟨b, n, cc, rfl⟩ : ∃ (b : Fin 8) (n cc : Fin 1024), i = ix3 b n cc := ⟨i 0, i 1, i 2, eq_ix3 i⟩
  refine (Stretches.ops1_v12 (Gen.W2 m ρ c) b n cc (row b n) rfl).trans ?_
  rw [w2_v]
  exact projected_apply m ρ c 2 b n cc

/-- The attention kernel's output array. -/
theorem w4_attn (c : Dev nD) : (Gen.W4 m ρ c (Proc.devRef .tc main_v13) : Cube)
    = attend scale floor
        (project (m ((c : Thread nD τ).loc main_arg0)) (m ((c : Thread nD τ).loc main_arg1)) (m ((c : Thread nD τ).loc main_arg2)) 0)
        (project (m ((c : Thread nD τ).loc main_arg0)) (m ((c : Thread nD τ).loc main_arg1)) (m ((c : Thread nD τ).loc main_arg2)) 1)
        (project (m ((c : Thread nD τ).loc main_arg0)) (m ((c : Thread nD τ).loc main_arg1)) (m ((c : Thread nD τ).loc main_arg2)) 2) := by
  refine ((Gen.W4_arr m ρ c 3).trans (Region1.final (Gen.V3 m ρ) c)).trans ?_
  show attend scale floor (Gen.V3 m ρ c main_v10 : Cube) (Gen.V3 m ρ c main_v11 : Cube) (Gen.V3 m ρ c main_v12 : Cube) = _
  rw [v3_q, v3_k, v3_v]

/-! ## The output-projection kernel's inputs -/

/-- The output weight reaches the third kernel's entry as launched: nothing before it writes it. -/
theorem w4_arg3 (c : Dev nD) : Gen.W4 m ρ c (Proc.devRef .tc main_arg3) = m ((c : Thread nD τ).loc main_arg3) :=
  calc Gen.W4 m ρ c (Proc.devRef .tc main_arg3)
    _ = Gen.W3 m ρ c (Proc.devRef .tc main_arg3) := Gen.W4_of_ne m ρ c main_arg3 (by decide)
    _ = Gen.W2 m ρ c (Proc.devRef .tc main_arg3) := Stretches.ops1_keep_arg3 (Gen.W2 m ρ c)
    _ = Gen.W1 m ρ c (Proc.devRef .tc main_arg3) := Gen.W2_of_ne m ρ c main_arg3 (by decide)
    _ = Gen.W0 m ρ c (Proc.devRef .tc main_arg3) := Stretches.ops0_keep_arg3 (Gen.W0 m ρ c)
    _ = m ((c : Thread nD τ).loc main_arg3) := rfl

theorem w4_arg4 (c : Dev nD) : Gen.W4 m ρ c (Proc.devRef .tc main_arg4) = m ((c : Thread nD τ).loc main_arg4) :=
  calc Gen.W4 m ρ c (Proc.devRef .tc main_arg4)
    _ = Gen.W3 m ρ c (Proc.devRef .tc main_arg4) := Gen.W4_of_ne m ρ c main_arg4 (by decide)
    _ = Gen.W2 m ρ c (Proc.devRef .tc main_arg4) := Stretches.ops1_keep_arg4 (Gen.W2 m ρ c)
    _ = Gen.W1 m ρ c (Proc.devRef .tc main_arg4) := Gen.W2_of_ne m ρ c main_arg4 (by decide)
    _ = Gen.W0 m ρ c (Proc.devRef .tc main_arg4) := Stretches.ops0_keep_arg4 (Gen.W0 m ρ c)
    _ = m ((c : Thread nD τ).loc main_arg4) := rfl

/-- The flattened input is an input window of the first kernel and is written by nothing after it. -/
theorem w5_v0 (c : Dev nD) : Gen.W5 m ρ c (Proc.devRef .tc main_v0) = Gen.V1 m ρ c main_v0 :=
  calc Gen.W5 m ρ c (Proc.devRef .tc main_v0)
    _ = Gen.W4 m ρ c (Proc.devRef .tc main_v0) := Stretches.ops2_keep_v0 (Gen.W4 m ρ c)
    _ = Gen.W3 m ρ c (Proc.devRef .tc main_v0) := Gen.W4_of_ne m ρ c main_v0 (by decide)
    _ = Gen.W2 m ρ c (Proc.devRef .tc main_v0) := Stretches.ops1_keep_v0 (Gen.W2 m ρ c)
    _ = (Gen.dat0 (Gen.V1 m ρ) c).arrAt 0 cfg0.N := Gen.W2_arr m ρ c 0
    _ = (Gen.dat0 (Gen.V1 m ρ) c).A 0 := (Gen.dat0 (Gen.V1 m ρ) c).arrAt_in 0 rfl _
    _ = Gen.V1 m ρ c main_v0 := Gen.A_eq0 (Gen.V1 m ρ) c 0

theorem v5_a (c : Dev nD) (b : Fin 8) (n cc : Fin 1024) :
    Gen.V5 m ρ c main_v14 (ix2 (row b n) cc)
      = attend scale floor
        (project (m ((c : Thread nD τ).loc main_arg0)) (m ((c : Thread nD τ).loc main_arg1)) (m ((c : Thread nD τ).loc main_arg2)) 0)
        (project (m ((c : Thread nD τ).loc main_arg0)) (m ((c : Thread nD τ).loc main_arg1)) (m ((c : Thread nD τ).loc main_arg2)) 1)
        (project (m ((c : Thread nD τ).loc main_arg0)) (m ((c : Thread nD τ).loc main_arg1)) (m ((c : Thread nD τ).loc main_arg2)) 2)
        (ix3 b n cc) :=
  (Stretches.ops2_v14 (Gen.W4 m ρ c) b n cc (row b n) rfl).trans (congrFun (w4_attn m ρ c) (ix3 b n cc))

theorem v5_w (c : Dev nD) (e cc : Fin 1024) :
    Gen.V5 m ρ c main_v15 (ix2 e cc) = m ((c : Thread nD τ).loc main_arg3) (ix2 e cc) :=
  (Stretches.ops2_v15 (Gen.W4 m ρ c) e cc).trans (congrFun (w4_arg3 m ρ c) (ix2 e cc))

theorem v5_b (c : Dev nD) (e : Fin 1024) :
    Gen.V5 m ρ c main_v16 (ix2 (0 : Fin 1) e) = m ((c : Thread nD τ).loc main_arg4) (ix1 e) :=
  (Stretches.ops2_v16 (Gen.W4 m ρ c) e).trans (congrFun (w4_arg4 m ρ c) (ix1 e))

theorem v5_x (c : Dev nD) (b : Fin 8) (n e : Fin 1024) :
    Gen.V5 m ρ c main_v0 (ix2 (row b n) e) = m ((c : Thread nD τ).loc main_arg0) (ix3 b n e) :=
  (congrFun (w5_v0 m ρ c) (ix2 (row b n) e)).trans (v1_x m ρ c b n e)

/-! ## The result -/

/-- The result buffer at the last boundary is the layer of the argument arrays. -/
theorem result_eq (c : Dev nD) : (Gen.W7 m ρ c (Proc.devRef .tc main_v18) : Cube)
    = layer scale floor (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨b, n, e, rfl⟩ : ∃ (b : Fin 8) (n e : Fin 1024), i = ix3 b n e := ⟨i 0, i 1, i 2, eq_ix3 i⟩
  refine (Stretches.ops3_v18 (Gen.W6 m ρ c) b n e (row b n) rfl).trans ?_
  rw [show Gen.W6 m ρ c (Proc.devRef .tc main_v17)
      = Region2.projected (Gen.V5 m ρ c main_v14) (Gen.V5 m ρ c main_v15) (Gen.V5 m ρ c main_v16) (Gen.V5 m ρ c main_v0)
    from (Gen.W6_arr m ρ c 4).trans (Region2.final (Gen.V5 m ρ) c)]
  unfold Region2.projected layer finish
  exact congrArg₂ (· + ·) (congrArg₂ (· + ·)
    (Finset.sum_congr rfl fun cc _ => congrArg₂ (· * ·) (v5_a m ρ c b n cc) (v5_w m ρ c e cc)) (v5_b m ρ c e)) (v5_x m ρ c b n e)

end Cert.KernelIdeal.Value

end
-- ==== Proof.RefValue.lean ====
/-
  The reference, read at an index over the extended reals: it is `Cert.Attn.layer` of its arguments.

  The reference projects the input by the weight and adds the bias (3072 channels per position), views the channels as
  16 heads of 192, cuts each head into 64 query, 64 key and 64 value channels, scores queries against keys per head
  with the factor 1/8, takes the softmax of each row of scores (the row maximum, started at −∞, subtracted before the
  exponential), mixes the values, lays the heads side by side again and applies the output projection, its bias and
  the residual.
-/
import proofs.«111769_j14559939133659_2_alg».proof.Proof.Gen.ReferenceIdeal.Read
import proofs.«111769_j14559939133659_2_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Read Idealize.ShloMosaic Idealize.ShloMosaic.ValueIdx
open Cert.Attn

/-- The scale 1/8 and the starting value −∞ of the row maximum, as the reference spells them. -/
abbrev scale : EReal := Ideal.ofBits .f32 0x3E000000#32
abbrev floor : EReal := Ideal.ofBits .f32 0xFF800000#32

variable (x : (⟨S8x1024x1024, .f32⟩ : BufTy).Contents (Elt Ideal)) (w : (⟨S3072x1024, .f32⟩ : BufTy).Contents (Elt Ideal)) (b : (⟨S3072, .f32⟩ : BufTy).Contents (Elt Ideal))
  (fw : (⟨S1024x1024, .f32⟩ : BufTy).Contents (Elt Ideal)) (fb : (⟨S1024, .f32⟩ : BufTy).Contents (Elt Ideal))

/-- The projection with its bias, at position `(bi, n)` and channel `e`. -/
theorem proj_apply (bi : Fin 8) (n : Fin 1024) (e : Fin 3072) :
    val_main_v3 (F := Ideal) x w b (ix3 bi n e) = (∑ d : Fin 1024, x (ix3 bi n d) * w (ix2 e d)) + b (ix1 e) := by
  rw [val_main_v3_apply, val_main_v0_apply, val_main_v2_apply, val_main_v1_apply]
  have hl : ∀ k : Fin 1024, lidx_main_v0 (ix3 bi n e) k = ix3 bi n k := fun k => funext fun a =>
    match a with | ⟨0, _⟩ => rfl | ⟨1, _⟩ => rfl | ⟨2, _⟩ => rfl
  have hr : ∀ k : Fin 1024, ridx_main_v0 (ix3 bi n e) k = ix2 e k := fun k => funext fun a =>
    match a with | ⟨0, _⟩ => rfl | ⟨1, _⟩ => rfl
  have hbias : idx_main_v1 (idx_main_v2 (ix3 bi n e)) = ix1 e := funext fun a => match a with | ⟨0, _⟩ => rfl
  simp only [hl, hr, hbias]
  rfl

/-- The queries of head `h` at position `n`, channel `e`, are the projection's channel `h·64 + e` of group 0. -/
theorem q_apply (bi : Fin 8) (h : Fin 16) (n : Fin 1024) (e : Fin 64) :
    val_main_v8 (F := Ideal) x w b (ix4 bi h n e) = project x w b (0 : Fin 3) (ix3 bi n (chan h e)) := by
  rw [val_main_v8_apply, val_main_v5_apply, val_main_v4_apply]
  have hb := bi.isLt; have hh := h.isLt; have hn := n.isLt; have he := e.isLt
  have hidx : idx_main_v4 (idx_main_v5 (idx_main_v8 (ix4 bi h n e))) = ix3 bi n (wrow (0 : Fin 3) (chan h e)) := by
    funext a; apply Fin.ext
    match a with
    | ⟨0, _⟩ => show (((bi.val * 1024 + n.val) * 16 + h.val) * 192 + (e.val)) / 3145728 = bi.val; omega
    | ⟨1, _⟩ => show (((bi.val * 1024 + n.val) * 16 + h.val) * 192 + (e.val)) / 3072 % 1024 = n.val; omega
    | ⟨2, _⟩ => show (((bi.val * 1024 + n.val) * 16 + h.val) * 192 + (e.val)) % 3072 = (h.val * 64 + e.val) / 64 * 192 + 0 * 64 + (h.val * 64 + e.val) % 64; omega
  rw [hidx, proj_apply]
  rfl

/-- The keys of head `h` at position `n`, channel `e`, are the projection's channel `h·64 + e` of group 1. -/
theorem k_apply (bi : Fin 8) (h : Fin 16) (n : Fin 1024) (e : Fin 64) :
    val_main_v9 (F := Ideal) x w b (ix4 bi h n e) = project x w b (1 : Fin 3) (ix3 bi n (chan h e)) := by
  rw [val_main_v9_apply, val_main_v6_apply, val_main_v4_apply]
  have hb := bi.isLt; have hh := h.isLt; have hn := n.isLt; have he := e.isLt
  have hidx : idx_main_v4 (idx_main_v6 (idx_main_v9 (ix4 bi h n e))) = ix3 bi n (wrow (1 : Fin 3) (chan h e)) := by
    funext a; apply Fin.ext
    match a with
    | ⟨0, _⟩ => show (((bi.val * 1024 + n.val) * 16 + h.val) * 192 + (64 + e.val)) / 3145728 = bi.val; omega
    | ⟨1, _⟩ => show (((bi.val * 1024 + n.val) * 16 + h.val) * 192 + (64 + e.val)) / 3072 % 1024 = n.val; omega
    | ⟨2, _⟩ => show (((bi.val * 1024 + n.val) * 16 + h.val) * 192 + (64 + e.val)) % 3072 = (h.val * 64 + e.val) / 64 * 192 + 1 * 64 + (h.val * 64 + e.val) % 64; omega
  rw [hidx, proj_apply]
  rfl

/-- The values of head `h` at position `n`, channel `e`, are the projection's channel `h·64 + e` of group 2. -/
theorem v_apply (bi : Fin 8) (h : Fin 16) (n : Fin 1024) (e : Fin 64) :
    val_main_v10 (F := Ideal) x w b (ix4 bi h n e) = project x w b (2 : Fin 3) (ix3 bi n (chan h e)) := by
  rw [val_main_v10_apply, val_main_v7_apply, val_main_v4_apply]
  have hb := bi.isLt; have hh := h.isLt; have hn := n.isLt; have he := e.isLt
  have hidx : idx_main_v4 (idx_main_v7 (idx_main_v10 (ix4 bi h n e))) = ix3 bi n (wrow (2 : Fin 3) (chan h e)) := by
    funext a; apply Fin.ext
    match a with
    | ⟨0, _⟩ => show (((bi.val * 1024 + n.val) * 16 + h.val) * 192 + (128 + e.val)) / 3145728 = bi.val; omega
    | ⟨1, _⟩ => show (((bi.val * 1024 + n.val) * 16 + h.val) * 192 + (128 + e.val)) / 3072 % 1024 = n.val; omega
    | ⟨2, _⟩ => show (((bi.val * 1024 + n.val) * 16 + h.val) * 192 + (128 + e.val)) % 3072 = (h.val * 64 + e.val) / 64 * 192 + 2 * 64 + (h.val * 64 + e.val) % 64; omega
  rw [hidx, proj_apply]
  rfl

/-- The scaled scores of head `h`: query `i` against key `j`. -/
def score (bi : Fin 8) (h : Fin 16) (i j : Fin 1024) : EReal :=
  (∑ e : Fin 64, project x w b 0 (ix3 bi i (chan h e)) * project x w b 1 (ix3 bi j (chan h e))) * scale

theorem score_apply (bi : Fin 8) (h : Fin 16) (i j : Fin 1024) :
    val_main_v13 (F := Ideal) x w b (ix4 bi h i j) = score x w b bi h i j := by
  rw [val_main_v13_apply, val_main_v11_apply, val_main_v12_apply, val_main_cst_apply]
  have hl : ∀ k : Fin 64, lidx_main_v11 (ix4 bi h i j) k = ix4 bi h i k := fun k => funext fun a =>
    match a with | ⟨0, _⟩ => rfl | ⟨1, _⟩ => rfl | ⟨2, _⟩ => rfl | ⟨3, _⟩ => rfl
  have hr : ∀ k : Fin 64, ridx_main_v11 (ix4 bi h i j) k = ix4 bi h j k := fun k => funext fun a =>
    match a with | ⟨0, _⟩ => rfl | ⟨1, _⟩ => rfl | ⟨2, _⟩ => rfl | ⟨3, _⟩ => rfl
  simp only [hl, hr, q_apply, k_apply]
  rfl

/-- The row maximum the reference subtracts: the maximum of row `i`'s scores, started at −∞. -/
theorem rowmax_apply (bi : Fin 8) (h : Fin 16) (i : Fin 1024) :
    val_main_v16 (F := Ideal) x w b (ix3 bi h i)
      = (Finset.univ : Finset (Fin 1024)).fold max floor (fun j => score x w b bi h i j) := by
  rw [val_main_v16_apply, val_main_v15_apply, val_main_cst_1_apply]
  unfold val_main_v14
  have hR : S8x16x1024x1024.Reduces [3] S8x16x1024 := by decide
  rw [Host.reduce_eq_fold_single FloatOps.maximumf _ _ Facts₀.reducesTo_S8x16x1024x1024_S8x16x1024_d3 hR Facts₀.h_S_ (ix3 bi h i)]
  have hlift : ∀ k : Fin 1024, hR.lift (ix3 bi h i) k = ix4 bi h i k :=
    fun k => funext fun a => match a with | ⟨0, _⟩ => rfl | ⟨1, _⟩ => rfl | ⟨2, _⟩ => rfl | ⟨3, _⟩ => rfl
  show max floor ((Finset.univ : Finset (Fin 1024)).fold max floor
    (fun k => val_main_v13 (F := Ideal) x w b (hR.lift (ix3 bi h i) k))) = _
  refine (max_eq_right ((Finset.le_fold_max _).mpr (Or.inl le_rfl))).trans ?_
  exact congrArg (fun f => (Finset.univ : Finset (Fin 1024)).fold max floor f)
    (funext fun k => (congrArg (val_main_v13 (F := Ideal) x w b) (hlift k)).trans (score_apply x w b bi h i k))

/-- The exponentials of the scores less the row maximum. -/
theorem exp_apply (bi : Fin 8) (h : Fin 16) (i j : Fin 1024) :
    val_main_v20 (F := Ideal) x w b (ix4 bi h i j)
      = Ideal.exp (score x w b bi h i j
          - (Finset.univ : Finset (Fin 1024)).fold max floor (fun j' => score x w b bi h i j')) := by
  rw [val_main_v20_apply, val_main_v19_apply, val_main_v18_apply, val_main_v17_apply, score_apply]
  have h1 : idx_main_v17 (idx_main_v18 (ix4 bi h i j)) = ix3 bi h i := funext fun a =>
    match a with | ⟨0, _⟩ => rfl | ⟨1, _⟩ => rfl | ⟨2, _⟩ => rfl
  rw [h1, rowmax_apply]
  rfl

/-- The softmax weights. -/
theorem weight_apply (bi : Fin 8) (h : Fin 16) (i j : Fin 1024) :
    val_main_v24 (F := Ideal) x w b (ix4 bi h i j)
      = Ideal.div (Ideal.exp (score x w b bi h i j
            - (Finset.univ : Finset (Fin 1024)).fold max floor (fun j' => score x w b bi h i j')))
          (∑ j'' : Fin 1024, Ideal.exp (score x w b bi h i j''
            - (Finset.univ : Finset (Fin 1024)).fold max floor (fun j' => score x w b bi h i j'))) := by
  rw [val_main_v24_apply, val_main_v23_apply, val_main_v22_apply, exp_apply]
  have h1 : idx_main_v22 (idx_main_v23 (ix4 bi h i j)) = ix3 bi h i := funext fun a =>
    match a with | ⟨0, _⟩ => rfl | ⟨1, _⟩ => rfl | ⟨2, _⟩ => rfl
  rw [h1, val_main_v21_apply, val_main_cst_2_apply]
  have h2 : ∀ k : Fin 1024, idx_main_v21 (ix3 bi h i) k = ix4 bi h i k := fun k => funext fun a =>
    match a with | ⟨0, _⟩ => rfl | ⟨1, _⟩ => rfl | ⟨2, _⟩ => rfl | ⟨3, _⟩ => rfl
  simp only [h2, exp_apply]
  show Ideal.div _ (Ideal.ofBits .f32 0x00000000#32 + _) = _
  rw [Ideal.ofBits_zero_f32, zero_add]

/-- One head's output is `Cert.Attn.head` of the projected queries, keys and values. -/
theorem mixed_apply (bi : Fin 8) (h : Fin 16) (i : Fin 1024) (d : Fin 64) :
    val_main_v25 (F := Ideal) x w b (ix4 bi h i d)
      = head (fun n e => project x w b 0 (ix3 bi n (chan h e))) (fun n e => project x w b 1 (ix3 bi n (chan h e)))
          (fun n e => project x w b 2 (ix3 bi n (chan h e))) scale floor i d := by
  rw [val_main_v25_apply]
  have hl : ∀ k : Fin 1024, lidx_main_v25 (ix4 bi h i d) k = ix4 bi h i k := fun k => funext fun a =>
    match a with | ⟨0, _⟩ => rfl | ⟨1, _⟩ => rfl | ⟨2, _⟩ => rfl | ⟨3, _⟩ => rfl
  have hr : ∀ k : Fin 1024, ridx_main_v25 (ix4 bi h i d) k = ix4 bi h k d := fun k => funext fun a =>
    match a with | ⟨0, _⟩ => rfl | ⟨1, _⟩ => rfl | ⟨2, _⟩ => rfl | ⟨3, _⟩ => rfl
  simp only [hl, hr, weight_apply, v_apply]
  rfl

/-- The heads laid side by side are `Cert.Attn.attend` of the three projections. -/
theorem attended_apply (bi : Fin 8) (n c : Fin 1024) :
    val_main_v27 (F := Ideal) x w b (ix3 bi n c)
      = attend scale floor (project x w b 0) (project x w b 1) (project x w b 2) (ix3 bi n c) := by
  rw [val_main_v27_apply, val_main_v26_apply]
  have hb := bi.isLt; have hn := n.isLt; have hc := c.isLt
  have hidx : idx_main_v26 (idx_main_v27 (ix3 bi n c)) = ix4 bi (headOf c) n (placeOf c) := by
    funext a; apply Fin.ext
    match a with
    | ⟨0, _⟩ => show ((bi.val * 1024 + n.val) * 1024 + c.val) / 1048576 = bi.val; omega
    | ⟨1, _⟩ => show ((bi.val * 1024 + n.val) * 1024 + c.val) / 64 % 16 = c.val / 64; omega
    | ⟨2, _⟩ => show ((bi.val * 1024 + n.val) * 1024 + c.val) / 1024 % 1024 = n.val; omega
    | ⟨3, _⟩ => show ((bi.val * 1024 + n.val) * 1024 + c.val) % 64 = c.val % 64; omega
  rw [hidx, mixed_apply]
  rfl

/-- The reference's result is the layer. -/
theorem result_eq :
    val_main_v32 (F := Ideal) x w b fw fb = layer scale floor x w b fw fb := by
  funext i
  obtain ⟨bi, n, e, rfl⟩ : ∃ (bi : Fin 8) (n e : Fin 1024), i = ix3 bi n e := ⟨i 0, i 1, i 2, eq_ix3 i⟩
  rw [val_main_v32_apply, val_main_v31_apply, val_main_v28_apply, val_main_v30_apply, val_main_v29_apply]
  have hl : ∀ k : Fin 1024, lidx_main_v28 (ix3 bi n e) k = ix3 bi n k := fun k => funext fun a =>
    match a with | ⟨0, _⟩ => rfl | ⟨1, _⟩ => rfl | ⟨2, _⟩ => rfl
  have hr : ∀ k : Fin 1024, ridx_main_v28 (ix3 bi n e) k = ix2 e k := fun k => funext fun a =>
    match a with | ⟨0, _⟩ => rfl | ⟨1, _⟩ => rfl
  have hbias : idx_main_v29 (idx_main_v30 (ix3 bi n e)) = ix1 e := funext fun a => match a with | ⟨0, _⟩ => rfl
  simp only [hl, hr, hbias, attended_apply]
  rfl

end Cert.ReferenceIdeal.RefValue

end
-- ==== Proof.lean ====
/-
  The kernel — a projection kernel, an attention kernel over 16 heads and an output-projection kernel, with host
  re-shapes between them — against the reference, a multi-head self-attention layer written in plain array operations.

  Over the extended reals both programs compute `Cert.Attn.layer` (Proof/Spec.lean) of the five argument arrays:
    * the kernel program's result buffer is followed through its seven segments in Proof/KernelValue.lean, over the
      three kernels' output arrays (Proof/Region0.lean, Proof/Region1.lean with Proof/Region1Array.lean and
      Proof/HeadValue.lean, Proof/Region2.lean) and the host re-shapes (Proof/Stretches.lean);
    * the reference's run is read one operation at a time in Proof/RefValue.lean.
  The two sides order the projection's 3072 channels differently (the kernel groups queries, keys and values first, the
  reference groups heads first) and tile the work differently; every sum is the same finite sum of the same terms, the
  softmax is written the same way on both sides, and changes of float format are the identity, so no algebraic law beyond
  re-indexing joins them and the inputs' finiteness is not used.
  The three frames are the generated ones; nothing was rewritten by the idealization, so there is nothing to preserve.
-/
import proofs.«111769_j14559939133659_2_alg».proof.Defs
import proofs.«111769_j14559939133659_2_alg».proof.Proof.Gen.Kernel
import proofs.«111769_j14559939133659_2_alg».proof.Proof.Gen.Kernel.Frame
import proofs.«111769_j14559939133659_2_alg».proof.Proof.Gen.KernelIdeal
import proofs.«111769_j14559939133659_2_alg».proof.Proof.Gen.KernelIdeal.Frame
import proofs.«111769_j14559939133659_2_alg».proof.Proof.Gen.ReferenceIdeal
import proofs.«111769_j14559939133659_2_alg».proof.Proof.Gen.ReferenceIdeal.Run
import proofs.«111769_j14559939133659_2_alg».proof.Proof.Gen.ReferenceIdeal.Read
import proofs.«111769_j14559939133659_2_alg».proof.Proof.Gen.Pre_finite_inputs
import proofs.«111769_j14559939133659_2_alg».proof.Proof.KernelRun
import proofs.«111769_j14559939133659_2_alg».proof.Proof.KernelValue
import proofs.«111769_j14559939133659_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the arguments in their result buffers. -/
theorem algebraic : Cert.algebraic_KernelIdeal_ReferenceIdeal := by
  intro m ρ m' ρ' _ hagree
  refine ⟨fun c => Cert.Attn.layer Cert.KernelIdeal.Value.scale Cert.KernelIdeal.Value.floor (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Value.result_eq m ρ c), (h c).2⟩)
      (Cert.KernelIdeal.GenP.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
